-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_cst_0 : FVec F S_ .f32 := constant S_ .f32 0x00000000#32
  let main_v4 : FVec F S8192 .f32 := (fun x v => Host.reduceAdd x v reducesTo_S8192x8192_S8192_d1 h_S_) main_arg0 main_cst_0
  let main_cst_1 : FVec F S_ .f32 := constant S_ .f32 0x3F800000#32
  let main_v5 : FVec F S8192 .f32 := broadcastInDim S8192 ![] bcast_S_S8192 main_cst_1
  let main_v6 : FVec F S8192 .f32 := addf main_v4 main_v5
  let main_cst_2 : FVec F S_ .f32 := constant S_ .f32 0x00000000#32
  let main_v7 : FVec F S8192 .f32 := broadcastInDim S8192 ![] bcast_S_S8192 main_cst_2
  let main_v8 : IVec S8192 1 := cmpf .ogt main_v6 main_v7
  let main_c_3 : IVec S_ 1 := constantI S_ 1 1#1
  let main_v9 : IVec S_ 1 := (fun x v => Host.reduce IntOp.andi x v reducesTo_S8192_S_d0 h_S_) main_v8 main_c_3
  let main_v10 : IVec S_ 1 := andi main_v3 main_v9
  main_v10
-- ==== Kernel.lean ====
abbrev S8192x8192 : Shape := ⟨2, ![8192, 8192]⟩
abbrev S8192 : Shape := ⟨1, ![8192]⟩
abbrev S512x8192 : Shape := ⟨2, ![512, 8192]⟩
abbrev S512 : Shape := ⟨1, ![512]⟩
abbrev S8192x1 : Shape := ⟨2, ![8192, 1]⟩
abbrev S1x8192 : Shape := ⟨2, ![1, 8192]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S8192x1, .f32⟩
  | .hbm, ⟨3, _⟩ => ⟨S1x8192, .f32⟩
  | .hbm, ⟨4, _⟩ => ⟨S8192x8192, .f32⟩
  | .local _ .vmem, ⟨0, _⟩ => ⟨S512x8192, .f32⟩
  | .local _ .vmem, ⟨1, _⟩ => ⟨S512x8192, .f32⟩
  | .local _ .vmem, ⟨2, _⟩ => ⟨S512, .f32⟩
  | .local _ .vmem, ⟨3, _⟩ => ⟨S512, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  inb_S512_S512_0 : ∀ a, (![0] : Fin 1 → Nat) a + S512.size a ≤ S512.size a
  h_S512 : 0 < S512.numel
  shapeCasts_S8192_S8192x1 : S8192.ShapeCasts S8192x1
  shapeCasts_S8192_S1x8192 : S8192.ShapeCasts S1x8192
  iota_S1024x1024_d0_w32 : S1024x1024.Iotas .tc 32 [0]
  iota_S1024x1024_d1_w32 : S1024x1024.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S8192.size a
  hwx0_1 : ∀ i : grid0.Coords, EltTy.bits .f32 = 32 ∨ (Rect.block (s := S8192) S512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)

variable [Facts₀]

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S1x8192 : Shape := ⟨2, ![1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S_, .i32⟩
  | .hbm, ⟨3, _⟩ => ⟨S8192, .i32⟩
  | .hbm, ⟨4, _⟩ => ⟨S8192, .i1⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S8192x1, .i32⟩
  | .hbm, ⟨18, _⟩ => ⟨S8192x2, .i32⟩
  | .hbm, ⟨19, _⟩ => ⟨S_, .f32⟩
  | .hbm, ⟨20, _⟩ => ⟨S8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S1x8192, .f32⟩
  | .hbm, ⟨31, _⟩ => ⟨S8192x8192, .f32⟩
  | .hbm, ⟨32, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  scatter_S8192x8192_S8192x2_S8192_n_01_01_1_wf : ScatterDims.WF S8192x8192 S8192x2 S8192 [] [0, 1] [0, 1] 1

variable [Facts₀]

def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.Spec.lean ====
/-
  The two results as functions of the weight matrix, index by index, over the extended reals.

  Write a for the 8192 x 8192 matrix of weights. One side forms, for each row r, the scale
  rsqrt (sum_k a[r,k] + 1) and returns (s_r * s_c) * a[r,c] + (s_r * s_c) * 1 on the diagonal, + 0 off it. The other
  side first adds 1 on the diagonal, b[r,c] = a[r,c] + [r = c], takes the scale (0 + sum_k b[r,k]) ^ (-1/2) and returns
  (t_r * b[r,c]) * t_c. Both are stated here, entry by entry, with the float words 1.0, 0.0 and -0.5 kept as words.
-/
import Idealize.ShloMosaic.PureOps.Ideal
import Idealize.ShloMosaic.Lib.ValueIdx

noncomputable section

open scoped BigOperators

namespace Cert.Spec

open Idealize.ShloMosaic Idealize.ShloMosaic.ValueIdx

abbrev SN : Shape := ⟨1, ![8192]⟩
abbrev SNN : Shape := ⟨2, ![8192, 8192]⟩
abbrev SN1 : Shape := ⟨2, ![8192, 1]⟩
abbrev S1N : Shape := ⟨2, ![1, 8192]⟩

/-- The words 1.0, 0.0 and -0.5 of f32, read as extended reals. -/
abbrev one : EReal := Ideal.ofBits .f32 0x3F800000#32
abbrev zero : EReal := Ideal.ofBits .f32 0x00000000#32
abbrev mhalf : EReal := Ideal.ofBits .f32 0xBF000000#32

/-! ## The side that scales by the reciprocal square root -/

/-- Row r's scale: the reciprocal square root of the row's sum plus one. -/
def dpK (a : FVec Ideal SNN .f32) (r : Fin 8192) : EReal :=
  Ideal.rsqrt ((∑ k : Fin 8192, a (ix2 r k)) + one)

/-- A column of row scales, a row of column scales and the weights give the scaled matrix: the product of the two
    scales times the weight, plus that product times one on the diagonal and zero off it. -/
def scaleK (col : FVec Ideal SN1 .f32) (row : FVec Ideal S1N .f32) (a : FVec Ideal SNN .f32) : FVec Ideal SNN .f32 :=
  fun j => (col (ix2 (j 0) (0 : Fin 1)) * row (ix2 (0 : Fin 1) (j 1))) * a j
    + (if (j 0).val = (j 1).val then (col (ix2 (j 0) (0 : Fin 1)) * row (ix2 (0 : Fin 1) (j 1))) * one else zero)

/-- The row scales as a vector, as a column and as a row. -/
def dpVec (a : FVec Ideal SNN .f32) : FVec Ideal SN .f32 := fun j => dpK a (j 0)
def dpCol (a : FVec Ideal SNN .f32) : FVec Ideal SN1 .f32 := fun j => dpK a (j 0)
def dpRow (a : FVec Ideal SNN .f32) : FVec Ideal S1N .f32 := fun j => dpK a (j 1)

/-- The whole result of this side. -/
def GK (a : FVec Ideal SNN .f32) : FVec Ideal SNN .f32 := scaleK (dpCol a) (dpRow a) a

theorem GK_apply (a : FVec Ideal SNN .f32) (r c : Fin 8192) :
    GK a (ix2 r c) = (dpK a r * dpK a c) * a (ix2 r c) + (if r.val = c.val then (dpK a r * dpK a c) * one else zero) := rfl

/-! ## The side that adds the diagonal first and raises to the power -1/2 -/

/-- The weights with one added on the diagonal. -/
def aR (a : FVec Ideal SNN .f32) : FVec Ideal SNN .f32 :=
  fun j => a j + (if (j 0).val = (j 1).val then one else 0)

/-- Row r's scale on this side: the sum from zero of the filled row, to the power -1/2. -/
def dpR (a : FVec Ideal SNN .f32) (r : Fin 8192) : EReal :=
  Ideal.pow (zero + ∑ k : Fin 8192, aR a (ix2 r k)) mhalf

/-- The whole result of this side. -/
def GR (a : FVec Ideal SNN .f32) : FVec Ideal SNN .f32 :=
  fun j => (dpR a (j 0) * aR a j) * dpR a (j 1)

theorem GR_apply (a : FVec Ideal SNN .f32) (r c : Fin 8192) :
    GR a (ix2 r c) = (dpR a r * aR a (ix2 r c)) * dpR a c := rfl

end Cert.Spec

end
-- ==== Proof.LibERealFinite.lean ====
/-
  General facts about extended reals that are real numbers, for proofs at the ideal instance that pass to the reals:
  the coercion of a finite sum, a quotient and a square root of reals, a comparison-driven selection as a conditional,
  and that an extended real whose magnitude compares below +∞ is a real.
-/
import Idealize.ShloMosaic.PureOps.Ideal
import Idealize.ShloMosaic.PureOps.Ideal.Laws

noncomputable section

namespace Cert.LibERealFinite

open Idealize.ShloMosaic
open scoped BigOperators

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (x : ℝ) {y : ℝ} (h : y ≠ 0) : Ideal.div (x : EReal) (y : EReal) = ((x / y : ℝ) : EReal) := by
  rw [Ideal.div_coe h, ← EReal.coe_mul]; congr 1; field_simp

/-- The ideal square root of a nonnegative real is the real square root. -/
theorem sqrt_coe_nonneg {r : ℝ} (h : 0 ≤ r) : Ideal.sqrt (r : EReal) = (Real.sqrt r : EReal) := by
  rw [Ideal.sqrt_coe, if_neg (not_lt.mpr h)]

/-- Selecting by an ordered less-than comparison of extended reals is the conditional on the order. -/
theorem select_olt {α : Type} (a b : EReal) (x y : α) :
    Scalar.select (Ideal.cmp .olt a b) x y = if a < b then x else y := by
  by_cases h : a < b <;> simp [Scalar.select, Ideal.cmp, h]

/-- An extended real whose magnitude compares below the +∞ word of f32 is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

end Cert.LibERealFinite

end
-- ==== Proof.Algebra.lean ====
/-
  The two results agree when every weight is a real number and every row's sum plus one is positive.

  Write f for the real weights and d_r = sum_k f[r,k] + 1 > 0. On one side the row scale is the reciprocal square root
  of d_r, which for a positive real is (sqrt d_r)^(-1). On the other side the diagonal is filled first, so the row's sum
  from zero is sum_k (f[r,k] + [r = k]) = d_r, and the scale is d_r ^ (-1/2) = (sqrt d_r)^(-1) as well: one real number
  w_r on both sides. The entries are then (w_r w_c) f + [r = c] (w_r w_c) 1 and (w_r (f + [r = c])) w_c, equal in the
  reals by distributivity. Positivity matters twice: at d_r = 0 the two scales differ (an infinity against zero), and
  with an infinite scale distributivity over the extended reals fails.
-/
import proofs.«106334_j3178275799590_2_alg».proof.Proof.Spec
import proofs.«106334_j3178275799590_2_alg».proof.Proof.LibERealFinite
import Idealize.ShloMosaic.PureOps.Ideal.Laws

noncomputable section

open scoped BigOperators

namespace Cert.Spec

open Idealize.ShloMosaic Idealize.ShloMosaic.ValueIdx

/-! ## The three float words as real numbers -/

theorem one_eq : one = ((1 : ℝ) : EReal) := by
  simp [Ideal.ofBits, Ideal.ieee, -EReal.coe_mul]; norm_num

theorem zero_eq : zero = ((0 : ℝ) : EReal) := by
  simp [Ideal.ofBits, Ideal.ieee]

theorem mhalf_eq : mhalf = ((-(1 / 2) : ℝ) : EReal) := by
  simp [Ideal.ofBits, Ideal.ieee, -EReal.coe_mul]; norm_num

/-! ## The two scales of a positive real -/

/-- The reciprocal square root of a positive real is the reciprocal of its square root. -/
theorem rsqrt_pos {d : ℝ} (h : 0 < d) : Ideal.rsqrt (d : EReal) = (((Real.sqrt d)⁻¹ : ℝ) : EReal) := by
  rw [Ideal.rsqrt_coe, if_neg (not_lt.mpr h.le), if_neg h.ne']

/-- A positive real to the power -1/2 is the reciprocal of its square root. -/
theorem pow_mhalf_pos {d : ℝ} (h : 0 < d) :
    Ideal.pow (d : EReal) ((-(1 / 2) : ℝ) : EReal) = (((Real.sqrt d)⁻¹ : ℝ) : EReal) := by
  rw [Ideal.pow_coe_coe]
  congr 1
  show d ^ (-(1 / 2) : ℝ) = (Real.sqrt d)⁻¹
  rw [Real.rpow_neg h.le, Real.sqrt_eq_rpow]

/-! ## The rows' sums -/

section
variable (f : SNN.Idx → ℝ)

/-- The sum over k of the indicator of r = k is one. -/
theorem sum_diag (r : Fin 8192) : (∑ k : Fin 8192, (if r.val = k.val then (1 : ℝ) else 0)) = 1 := by
  have : ∀ k : Fin 8192, (if r.val = k.val then (1 : ℝ) else 0) = if r = k then 1 else 0 := fun k => by
    simp only [Fin.val_inj]
  simp only [this, Finset.sum_ite_eq, Finset.mem_univ, if_true]

/-- A row's sum after the diagonal is filled is the row's sum plus one. -/
theorem sum_filled (r : Fin 8192) :
    (∑ k : Fin 8192, (f (ix2 r k) + (if r.val = k.val then (1 : ℝ) else 0))) = (∑ k : Fin 8192, f (ix2 r k)) + 1 := by
  rw [Finset.sum_add_distrib, sum_diag]

end

/-! ## The two results are one function -/

/-- With real weights and every row's sum plus one positive, the two results are equal at every entry. -/
theorem GK_eq_GR (a : FVec Ideal SNN .f32) (hreal : ∀ j, ∃ x : ℝ, a j = (x : EReal))
    (hpos : ∀ r : Fin 8192, zero < (zero + ∑ k : Fin 8192, a (ix2 r k)) + one) : GK a = GR a := by
  choose f hf using hreal
  -- the rows' sums are real
  have hsum : ∀ r : Fin 8192, (∑ k : Fin 8192, a (ix2 r k)) = ((∑ k : Fin 8192, f (ix2 r k) : ℝ) : EReal) := fun r => by
    rw [Cert.LibERealFinite.coe_sum]; exact Finset.sum_congr rfl fun k _ => hf _
  -- and, plus one, positive
  have hd : ∀ r : Fin 8192, 0 < (∑ k : Fin 8192, f (ix2 r k)) + 1 := fun r => by
    have h := hpos r
    rw [hsum, zero_eq, one_eq, ← EReal.coe_add, ← EReal.coe_add, EReal.coe_lt_coe_iff] at h
    linarith
  -- the filled weights are real
  have haR : ∀ r k : Fin 8192, aR a (ix2 r k) = ((f (ix2 r k) + (if r.val = k.val then (1 : ℝ) else 0) : ℝ) : EReal) := fun r k => by
    show a (ix2 r k) + (if r.val = k.val then one else 0) = _
    rw [hf, one_eq, EReal.coe_add]
    congr 1
    split_ifs <;> simp
  -- both scales are the reciprocal of the square root of the row's sum plus one
  have hK : ∀ r : Fin 8192, dpK a r = (((Real.sqrt ((∑ k : Fin 8192, f (ix2 r k)) + 1))⁻¹ : ℝ) : EReal) := fun r => by
    unfold dpK
    rw [hsum, one_eq, ← EReal.coe_add]
    exact rsqrt_pos (hd r)
  have hR : ∀ r : Fin 8192, dpR a r = (((Real.sqrt ((∑ k : Fin 8192, f (ix2 r k)) + 1))⁻¹ : ℝ) : EReal) := fun r => by
    unfold dpR
    have : (∑ k : Fin 8192, aR a (ix2 r k)) = (((∑ k : Fin 8192, f (ix2 r k)) + 1 : ℝ) : EReal) := by
      rw [← sum_filled f r, Cert.LibERealFinite.coe_sum]; exact Finset.sum_congr rfl fun k _ => haR r k
    rw [this, zero_eq, mhalf_eq, ← EReal.coe_add, zero_add]
    exact pow_mhalf_pos (hd r)
  funext j
  obtain ⟨r, c, rfl⟩ : ∃ (r c : Fin 8192), j = ix2 r c := ⟨j 0, j 1, eq_ix2 j⟩
  rw [GK_apply, GR_apply, hK, hK, hR, hR, haR, hf, one_eq, zero_eq]
  by_cases hrc : r.val = c.val
  · rw [if_pos hrc, if_pos hrc, ← EReal.coe_mul, ← EReal.coe_mul, ← EReal.coe_mul, ← EReal.coe_add, ← EReal.coe_mul,
      ← EReal.coe_mul]
    congr 1; ring
  · rw [if_neg hrc, if_neg hrc, ← EReal.coe_mul, ← EReal.coe_mul, ← EReal.coe_add, ← EReal.coe_mul, ← EReal.coe_mul]
    congr 1; ring

end Cert.Spec

end
-- ==== Proof.LibFiniteAll.lean ====
/-
  A finiteness predicate read back at the ideal instance. A host predicate that tests a float array for finiteness computes
  the conjunction, over all its entries, of |x| < +∞ (an ordered less-than comparison of the absolute value against the
  splat of the +∞ word of f32), as a reduction by `and` from the constant 1 into a result of one index. At the ideal
  instance |x| is max x (-x) over the extended reals and the +∞ word denotes ⊤, so the bit being 1 says that every
  entry is a real number. Generic in the operand shape, the reduced axes, the scalar shape the constant is splat from
  and the initial value.
-/
import Idealize.ShloMosaic.Lib.StableHlo
import Idealize.ShloMosaic.Lib.ReduceAll
import Idealize.ShloMosaic.PureOps
import Idealize.ShloMosaic.PureOps.Ideal
import Idealize.ShloMosaic.PureOps.Ideal.Laws

noncomputable section

namespace Cert.LibFiniteAll

open Idealize.ShloMosaic

/-- The rank-0 shape has one index. -/
instance subsingleton_idx0 : Subsingleton (⟨0, ![]⟩ : Shape).Idx := ⟨fun a b => funext fun d => d.elim0⟩

/-- The conjunction of two `i1` vectors is 1 at an index exactly when both are. -/
theorem andi_apply_eq_one {s : Shape} (x y : IVec s 1) (i : s.Idx) :
    andi x y i = 1#1 ↔ x i = 1#1 ∧ y i = 1#1 := IntOp.andi_eq_one

/-- An extended real whose magnitude max x (-x) compares below the +∞ word of f32 is a real number. -/
theorem real_of_abs_olt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The comparison |a| < splat(+∞) that is 1 at an entry: that entry is a real number. -/
theorem real_of_cmp_entry {s c : Shape} {dims : Fin c.rank → Fin s.rank} (hb : c.BroadcastsInDim s dims)
    (a : FVec Ideal s .f32) (i : s.Idx)
    (e : cmpf .olt (Host.absf a) (broadcastInDim s dims hb (constant (F := Ideal) c .f32 0x7F800000#32)) i = 1#1) :
    ∃ r : ℝ, a i = (r : EReal) :=
  real_of_abs_olt_inf (a i) e

/-- THE PREDICATE READ BACK, the comparison given as a vector `p` known entrywise: if the reduction by `and` of `p` into a
    result of one index is 1 and `p` is the comparison |a| < splat(+∞), every entry of `a` is a real number. -/
theorem real_of_all_of_eq {s t u c : Shape} {axes : List (Fin s.rank)} [Subsingleton t.Idx]
    {dims : Fin c.rank → Fin s.rank} (hb : c.BroadcastsInDim s dims)
    (a : FVec Ideal s .f32) (p : IVec s 1) (init : u.Idx → BitVec 1) (h : s.ReducesTo axes t) (hu : 0 < u.numel) (j : t.Idx)
    (hp : p = cmpf .olt (Host.absf a) (broadcastInDim s dims hb (constant (F := Ideal) c .f32 0x7F800000#32)))
    (e : Host.reduce IntOp.andi p init h hu j = 1#1) :
    ∀ i, ∃ r : ℝ, a i = (r : EReal) := by
  intro i
  have hi := Host.reduce_andi_all p init h hu j e i
  rw [hp] at hi
  exact real_of_cmp_entry hb a i hi

/-- THE PREDICATE READ BACK: if the reduction by `and`, into a result of one index, of |a| < splat(+∞) is 1, every entry
    of `a` is a real number. -/
theorem real_of_all {s t u c : Shape} {axes : List (Fin s.rank)} [Subsingleton t.Idx]
    {dims : Fin c.rank → Fin s.rank} (hb : c.BroadcastsInDim s dims)
    (a : FVec Ideal s .f32) (init : u.Idx → BitVec 1) (h : s.ReducesTo axes t) (hu : 0 < u.numel) (j : t.Idx)
    (e : Host.reduce IntOp.andi
          (cmpf .olt (Host.absf a) (broadcastInDim s dims hb (constant (F := Ideal) c .f32 0x7F800000#32))) init h hu j = 1#1) :
    ∀ i, ∃ r : ℝ, a i = (r : EReal) :=
  real_of_all_of_eq hb a _ init h hu j rfl e

end Cert.LibFiniteAll

end
-- ==== Proof.PreFacts.lean ====
/-
  The precondition read back at the extended reals.

  The precondition is the conjunction of two tests of the weight matrix a: every entry's magnitude is below +infinity, and
  for every row r the row's sum from zero, plus one, is above zero. Over the extended reals the first says that every
  entry is a real number and the second is the inequality itself.
-/
import proofs.«106334_j3178275799590_2_alg».proof.Pre_finite_inputs
import proofs.«106334_j3178275799590_2_alg».proof.Proof.Spec
import proofs.«106334_j3178275799590_2_alg».proof.Proof.LibFiniteAll
import Idealize.ShloMosaic.Lib.ReduceAll
import Idealize.ShloMosaic.PureOps.Ideal.Laws

noncomputable section

open scoped BigOperators

namespace Cert.PreFacts

open Idealize.ShloMosaic Idealize.ShloMosaic.ValueIdx Cert.Pre_finite_inputs Cert.Pre_finite_inputs.Facts

variable [Cert.Pre_finite_inputs.Facts]

/-- An ordered greater-than comparison of extended reals that answers 1 is the strict order. -/
theorem lt_of_cmp_ogt {x y : EReal} (h : Ideal.cmp .ogt x y = 1#1) : y < x := by
  by_contra hn
  simp [Ideal.cmp, hn] at h

/-- The host's sum of row r of the matrix, from the zero word: the zero word plus the sum of the row's entries. -/
theorem rowsum_apply (a : FVec Ideal S8192x8192 .f32) (r : Fin 8192) :
    Host.reduceAdd a (constant (F := Ideal) S_ .f32 0x00000000#32) reducesTo_S8192x8192_S8192_d1 h_S_ (ix1 r)
      = Cert.Spec.zero + ∑ k : Fin 8192, a (ix2 r k) := by
  simp only [Host.reduceAdd, Ideal.hostReduceAdd_def]
  rw [Ideal.hostReduceAdd_single reducesTo_S8192x8192_S8192_d1 (by decide)]
  refine congrArg₂ (· + ·) rfl (Finset.sum_congr rfl fun k _ => ?_)
  exact congrArg a (funext fun d => Fin.ext (by match d with | ⟨0, _⟩ => rfl | ⟨1, _⟩ => rfl))

/-- The precondition holds of a: every entry of a is a real number, and every row's sum from zero, plus one, is above
    zero. -/
theorem facts (a : FVec Ideal S8192x8192 .f32) (h : Cert.Pre_finite_inputs.fn (F := Ideal) a = fun _ => 1#1) :
    (∀ j, ∃ x : ℝ, a j = (x : EReal))
      ∧ (∀ r : Fin 8192, Cert.Spec.zero < (Cert.Spec.zero + ∑ k : Fin 8192, a (ix2 r k)) + Cert.Spec.one) := by
  have h0 := congrFun h ix0
  dsimp only [Cert.Pre_finite_inputs.fn] at h0
  obtain ⟨h1, h2⟩ := (Cert.LibFiniteAll.andi_apply_eq_one _ _ _).mp h0
  refine ⟨Cert.LibFiniteAll.real_of_all bcast_S_S8192x8192 a _ reducesTo_S8192x8192_S_d0_1 h_S_ ix0 h1, fun r => ?_⟩
  have h3 := Host.reduce_andi_all _ _ reducesTo_S8192_S_d0 h_S_ ix0 h2 (ix1 r)
  have h4 : Ideal.cmp .ogt
      (Host.reduceAdd a (constant (F := Ideal) S_ .f32 0x00000000#32) reducesTo_S8192x8192_S8192_d1 h_S_ (ix1 r) + Cert.Spec.one)
      Cert.Spec.zero = 1#1 := h3
  rw [rowsum_apply] at h4
  exact lt_of_cmp_ogt h4

end Cert.PreFacts

end
-- ==== Proof.KernelRun.lean ====
import proofs.«106334_j3178275799590_2_alg».proof.Proof.FramePKernelIdeal

set_option maxRecDepth 16384

noncomputable section

namespace Cert.KernelIdeal.KVal

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run of the program with its result named: from any memory with zero counters, every weakly fair execution on
    the cores terminates without fault, and in every final state the output array holds the last boundary's contents
    at the output reference, while the argument array is as launched. The segments, the chain of thread states and the
    initial resources are those of the frame theorem; only the final reading is stronger: the last thread state holds
    EVERY unscoped buffer at the last boundary's contents, so the output's buffer is read off it as well. -/
theorem run_value : θ_run defs (onTc (τ := τ) (main (F := F))) ⟨m, fun _ => 0, ρ⟩ (fun r => ∀ c : Dev nD,
      r.2.mem ((c.tc : Thread nD τ).loc main_v3) = W3 m ρ c (Proc.devRef .tc main_v3)
    ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c)⟩)

/-- info: 'Cert.KernelIdeal.KVal.run_value' depends on axioms: [propext, Classical.choice, Quot.sound] -/
#guard_msgs in #print axioms run_value

end Cert.KernelIdeal.KVal

end
-- ==== Proof.Region0.lean ====
/-
  The first region's output, as one function of the weight matrix.

  The first region walks the 8192 x 8192 weight matrix in 16 bands of 512 rows. At band t it loads the whole band,
  sums every row over its 8192 lanes, adds one and takes the reciprocal square root, and writes the 512 results to
  rows 512·t … 512·t + 511 of a vector of 8192 entries. Since row p of band t is row 512·t + p of the matrix, and
  entry p of the band's result lands at entry 512·t + p of the vector, the vector ends holding, at every entry r,
  the scale of row r: rsqrt (∑ₖ a[r,k] + 1). The 16 bands are disjoint and together cover the vector (entry r lies
  in band r / 512), so nothing of the vector's earlier contents survives.
-/
import proofs.«106334_j3178275799590_2_alg».proof.Proof.FramePKernelIdeal
import proofs.«106334_j3178275799590_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KVal

open Cert.KernelIdeal Cert.KernelIdeal.Gen Cert.KernelIdeal.GenP
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offsets of a whole-buffer access, as constant functions. -/
theorem hz1 : (![0] : Fin 1 → Nat) = fun _ => 0 := funext fun a => by fin_cases a; rfl
theorem hz2 : (![0, 0] : Fin 2 → Nat) = fun _ => 0 := funext fun a => by fin_cases a <;> rfl

/-! ## One band's result at a row -/

/-- The band's result at row p: the reciprocal square root of the row's sum over the 8192 lanes, plus one. The sum
    over the lane axis is the sum over the lane coordinate; adding the broadcast word 1.0 and the reciprocal square
    root act entry by entry. -/
theorem pay_apply (x : Vec Ideal S512x8192 .f32) (p : Fin 512) :
    k0_pay1 (F := Ideal) x (ix1 p) = Ideal.rsqrt ((∑ k : Fin 8192, x (ix2 p k)) + Cert.Spec.one) := by
  unfold k0_pay1
  show Ideal.rsqrt (multiReduction (F := Ideal) .add [1] S512 x 0x00000000#32 reduces_S512x8192_S512 (.inl rfl) rfl (ix1 p) + Cert.Spec.one) = _
  refine congrArg (fun z => Ideal.rsqrt (z + Cert.Spec.one)) ?_
  refine (Ideal.multiReduction_add_single x 0x00000000#32 reduces_S512x8192_S512 (.inl rfl) rfl (ix1 p)).trans ?_
  refine Finset.sum_congr rfl fun k _ => congrArg x ?_
  funext a
  apply Fin.ext
  match a with
  | ⟨0, _⟩ => rfl
  | ⟨1, _⟩ => rfl

/-- When the band is rows n·512 … n·512 + 511 of a matrix A, its result at row p is the scale of row n·512 + p of A. -/
theorem pay_rows (A : FVec Ideal Cert.Spec.SNN .f32) (x : Vec Ideal S512x8192 .f32) (n : Nat) (p : Fin 512)
    (h : n * 512 + p.val < 8192)
    (hx : ∀ k : Fin 8192, x (ix2 p k) = A (ix2 ⟨n * 512 + p.val, h⟩ k)) :
    k0_pay1 (F := Ideal) x (ix1 p) = Cert.Spec.dpK A ⟨n * 512 + p.val, h⟩ := by
  refine (pay_apply x p).trans ?_
  unfold Cert.Spec.dpK
  refine congrArg (fun z => Ideal.rsqrt (z + Cert.Spec.one)) ?_
  exact Finset.sum_congr rfl fun k _ => hx k

/-! ## Which band a point reads and writes -/

/-- At point t the matrix window sits at band t (all columns) and the vector window at block t: checked at the 16
    points. -/
theorem idx_facts : ∀ t : Fin cfg0.N, win0_0.index t (0 : Fin 2) = t.val ∧ win0_0.index t (1 : Fin 2) = 0
    ∧ win0_1.index t (0 : Fin 1) = t.val :=
  (by decide +kernel : ∀ t : Fin grid0.N, _)

/-- Entry (p, k) of the band loaded at point t is entry (512·t + p, k) of the weight matrix as launched: an entry of
    a block sits in its array at block index × block size + its own coordinate, on each axis. -/
theorem iblk_apply (c : Dev nD) (t : Fin cfg0.N) (p : Fin 512) (k : Fin 8192) (h : t.val * 512 + p.val < 8192) :
    (iblk0 (F := Ideal) (V0 m ρ) c 0 t : Vec Ideal S512x8192 .f32) (ix2 p k)
      = (m ((c.tc : Thread nD τ).loc main_arg0) : S8192x8192.Idx → EReal) (ix2 ⟨t.val * 512 + p.val, h⟩ k) := by
  obtain ⟨e0, e1, e2⟩ := idx_facts t
  show V0 m ρ c main_arg0 (((cfg0.win 0).blk t).view.emb (ix2 p k)) = _
  show m ((c.tc : Thread nD τ).loc main_arg0) _ = m ((c.tc : Thread nD τ).loc main_arg0) _
  refine congrArg (m ((c.tc : Thread nD τ).loc main_arg0)) ?_
  funext a
  apply Fin.ext
  match a with
  | ⟨0, _⟩ => show win0_0.index t (0 : Fin 2) * 512 + 1 * p.val = t.val * 512 + p.val; rw [e0]; omega
  | ⟨1, _⟩ => show win0_0.index t (1 : Fin 2) * 8192 + 1 * k.val = k.val; rw [e1]; omega

/-! ## From the bands to the vector -/

/-- What point t writes back is block t of the vector of row scales: entry p of the band's result is the scale of
    row 512·t + p, and block t of the vector reads entry 512·t + p there. -/
theorem flushed_eq (c : Dev nD) (t : Fin cfg0.N) :
    (dat0 (F := Ideal) (V0 m ρ) c).flushed 1 t
      = ((cfg0.win 1).blk t).view.read (Elt Ideal) (Cert.Spec.dpVec (m ((c.tc : Thread nD τ).loc main_arg0))) := by
  show (cfg0.win 1).cut (grid0.coords t) ((dat0 (V0 m ρ) c).after 1 t) = _
  rw [after0_1]
  unfold out0_1
  rw [View.canon_unit_zero hz1]
  simp only [View.ld_unit_zero (S := S512x8192) hz2]
  obtain ⟨e0, e1, e2⟩ := idx_facts t
  have hN : cfg0.N = 16 := N_0
  have ht : t.val < 16 := hN ▸ t.isLt
  funext j
  have hj : (j 0).val < 512 := (j 0).isLt
  have hlt : t.val * 512 + (j 0).val < 8192 := by omega
  have hxj : (cfg0.win 1).xinj (grid0.coords t) j = ix1 (⟨(j 0).val, hj⟩ : Fin 512) := funext fun a => by
    match a with
    | ⟨0, _⟩ => rfl
  show k0_pay1 (F := Ideal) (iblk0 (V0 m ρ) c 0 t) ((cfg0.win 1).xinj (grid0.coords t) j)
    = Cert.Spec.dpK (m ((c.tc : Thread nD τ).loc main_arg0)) ((((cfg0.win 1).blk t).view.emb j) 0)
  refine (congrArg (k0_pay1 (F := Ideal) (iblk0 (V0 m ρ) c 0 t)) hxj).trans ?_
  refine (pay_rows (m ((c.tc : Thread nD τ).loc main_arg0)) (iblk0 (V0 m ρ) c 0 t) t.val ⟨(j 0).val, hj⟩ hlt
    (fun k => iblk_apply m ρ c t ⟨(j 0).val, hj⟩ k hlt)).trans ?_
  refine congrArg (Cert.Spec.dpK (m ((c.tc : Thread nD τ).loc main_arg0))) ?_
  apply Fin.ext
  show t.val * 512 + (j 0).val = win0_1.index t (0 : Fin 1) * 512 + 1 * (j 0).val
  rw [e2]; omega

/-- An entry of the vector is in point t's block iff it lies in the block's range of 512 entries. -/
theorem mem_blk (t : Fin cfg0.N) (i : S8192.Idx) :
    i ∈ ((cfg0.win 1).blk t).view.set ↔ ∀ a : Fin 1, win0_1.index t a * S512.size a ≤ (i a).val ∧ (i a).val < win0_1.index t a * S512.size a + S512.size a := by
  show i ∈ ((View.whole main_v0).slice (win0_1.rect t)).set ↔ _
  rw [View.set_slice_whole, Rect.mem_set_unit]
  exact Iff.rfl

/-- Every entry r of the vector is written: it lies in the block of point r / 512. -/
theorem cover (i : S8192.Idx) : ∃ t : Fin cfg0.N, (cfg0.win 1).flush t = true ∧ i ∈ ((cfg0.win 1).blk t).view.set := by
  have hi : (i 0).val < 8192 := (i 0).isLt
  have hN : cfg0.N = 16 := N_0
  have hq : (i 0).val / 512 < cfg0.N := by rw [hN]; omega
  refine ⟨⟨(i 0).val / 512, hq⟩, flush0_1 _, ?_⟩
  rw [mem_blk]
  obtain ⟨e0, e1, e2⟩ := idx_facts ⟨(i 0).val / 512, hq⟩
  intro a
  match a with
  | ⟨0, _⟩ =>
    show win0_1.index ⟨(i 0).val / 512, hq⟩ (0 : Fin 1) * 512 ≤ (i 0).val ∧ (i 0).val < win0_1.index ⟨(i 0).val / 512, hq⟩ (0 : Fin 1) * 512 + 512
    rw [e2]
    show (i 0).val / 512 * 512 ≤ (i 0).val ∧ (i 0).val < (i 0).val / 512 * 512 + 512
    omega

/-- The first region's output array after its run is the vector of row scales of the weight matrix as launched:
    every point writes its block of that vector, and the blocks cover it. -/
theorem dpow_array (c : Dev nD) :
    (dat0 (F := Ideal) (V0 m ρ) c).arrAt 1 cfg0.N = Cert.Spec.dpVec (m ((c.tc : Thread nD τ).loc main_arg0)) :=
  (dat0 (F := Ideal) (V0 m ρ) c).arrAt_eq_of_cover 1 (Cert.Spec.dpVec (m ((c.tc : Thread nD τ).loc main_arg0)))
    (fun t _ => flushed_eq m ρ c t) cover

/-- info: 'Cert.KernelIdeal.KVal.dpow_array' depends on axioms: [propext, Classical.choice, Quot.sound] -/
#guard_msgs in #print axioms dpow_array

end Cert.KernelIdeal.KVal

end
-- ==== Proof.HostMid.lean ====
/-
  Between the two regions: the vector of row scales laid out as a column and as a row.

  After the first region the host reshapes the vector of 8192 row scales twice, into a column [8192, 1] and into a
  row [1, 8192]. A reshape keeps the row-major order of the entries, and in both layouts the row-major position of an
  entry is its one non-trivial coordinate; so entry (r, 0) of the column and entry (0, r) of the row are entry r of the
  vector, the scale of row r of the weight matrix. Neither reshape writes the weight matrix, and the first region only
  reads it, so the second region finds it as launched.
-/
import proofs.«106334_j3178275799590_2_alg».proof.Proof.Region0

set_option maxRecDepth 16384

noncomputable section

open scoped BigOperators

namespace Cert.KernelIdeal.KVal

open Cert.KernelIdeal Cert.KernelIdeal.Gen Cert.KernelIdeal.GenP
open Idealize.ShloMosaic Idealize.ShloMosaic.TcCoe Idealize.SL.Sem
open Idealize.ShloMosaic.ValueIdx
open Idealize.ShloMosaic.Pipeline (Dat)

/-! ## A vector reshaped to a column and to a row, read at an entry -/

/-- A vector of N entries reshaped to a column [N, 1]: entry (n, 0) is entry n, both at row-major position n. -/
theorem reshape_col_apply {α : Type} {N : Nat} (h : (⟨1, ![N]⟩ : Shape).ShapeCasts ⟨2, ![N, 1]⟩)
    (x : (⟨1, ![N]⟩ : Shape).Idx → α) (n : Fin N) (z : Fin 1) :
    shapeCast ⟨2, ![N, 1]⟩ x h (ix2 n z) = x (ix1 n) := by
  refine shapeCast_apply x h (ix2 n z) (ix1 n) ?_
  rw [Shape.rowMajor_val_one, Shape.rowMajor_val_two]
  obtain rfl : z = 0 := Subsingleton.elim _ _
  show n.val = n.val * 1 + 0
  omega

/-- A vector of N entries reshaped to a row [1, N]: entry (0, n) is entry n, both at row-major position n. -/
theorem reshape_row_apply {α : Type} {N : Nat} (h : (⟨1, ![N]⟩ : Shape).ShapeCasts ⟨2, ![1, N]⟩)
    (x : (⟨1, ![N]⟩ : Shape).Idx → α) (z : Fin 1) (n : Fin N) :
    shapeCast ⟨2, ![1, N]⟩ x h (ix2 z n) = x (ix1 n) := by
  refine shapeCast_apply x h (ix2 z n) (ix1 n) ?_
  rw [Shape.rowMajor_val_one, Shape.rowMajor_val_two]
  obtain rfl : z = 0 := Subsingleton.elim _ _
  show n.val = 0 * N + n.val
  omega

/-- The vector of row scales reshaped to a column is the column of row scales. -/
theorem col_of_vec (A : FVec Ideal Cert.Spec.SNN .f32) (x : S8192.Idx → EReal) (hx : x = Cert.Spec.dpVec A) :
    (fun i => shapeCast S8192x1 x shapeCasts_S8192_S8192x1 i) = Cert.Spec.dpCol A := by
  subst hx
  funext j
  obtain ⟨n, z, rfl⟩ : ∃ (n : Fin 8192) (z : Fin 1), j = ix2 n z := ⟨j 0, j 1, eq_ix2 j⟩
  exact reshape_col_apply shapeCasts_S8192_S8192x1 (Cert.Spec.dpVec A) n z

/-- The vector of row scales reshaped to a row is the row of row scales. -/
theorem row_of_vec (A : FVec Ideal Cert.Spec.SNN .f32) (x : S8192.Idx → EReal) (hx : x = Cert.Spec.dpVec A) :
    (fun i => shapeCast S1x8192 x shapeCasts_S8192_S1x8192 i) = Cert.Spec.dpRow A := by
  subst hx
  funext j
  obtain ⟨z, n, rfl⟩ : ∃ (z : Fin 1) (n : Fin 8192), j = ix2 z n := ⟨j 0, j 1, eq_ix2 j⟩
  exact reshape_row_apply shapeCasts_S8192_S1x8192 (Cert.Spec.dpVec A) z n

/-! ## What the second region finds -/

variable (m : (ℓ : Loc nD τ sig) → Buf (Elt Ideal) ℓ) (ρ : Dev nD → PrngReg)

/-- The first region leaves its output buffer at the vector of row scales. -/
theorem W1_main_v0 (c : Dev nD) :
    W1 (F := Ideal) m ρ c (Proc.devRef .tc main_v0) = Cert.Spec.dpVec (m ((c.tc : Thread nD τ).loc main_arg0)) :=
  (W1_arr m ρ c 1).trans (dpow_array m ρ c)

/-- The second region's column operand: entry (r, 0) is the scale of row r. -/
theorem V2_main_v1 (c : Dev nD) :
    V2 (F := Ideal) m ρ c main_v1 = Cert.Spec.dpCol (m ((c.tc : Thread nD τ).loc main_arg0)) := by
  show StableHlo.after hostOps1 (W1 m ρ c) (Proc.devRef .tc main_v1) = _
  after_results
  exact col_of_vec (m ((c.tc : Thread nD τ).loc main_arg0)) (W1 m ρ c (Proc.devRef .tc main_v0)) (W1_main_v0 m ρ c)

/-- The second region's row operand: entry (0, r) is the scale of row r. -/
theorem V2_main_v2 (c : Dev nD) :
    V2 (F := Ideal) m ρ c main_v2 = Cert.Spec.dpRow (m ((c.tc : Thread nD τ).loc main_arg0)) := by
  show StableHlo.after hostOps1 (W1 m ρ c) (Proc.devRef .tc main_v2) = _
  after_results
  exact row_of_vec (m ((c.tc : Thread nD τ).loc main_arg0)) (W1 m ρ c (Proc.devRef .tc main_v0)) (W1_main_v0 m ρ c)

/-- The second region's matrix operand is the weight matrix as launched: neither reshape writes it, and the first
    region stages it through an input window, which is never written back. -/
theorem V2_main_arg0 (c : Dev nD) :
    V2 (F := Ideal) m ρ c main_arg0 = m ((c.tc : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c.tc : Thread nD τ).loc main_arg0) := rfl

/-- info: 'Cert.KernelIdeal.KVal.V2_main_v1' depends on axioms: [propext, Classical.choice, Quot.sound] -/
#guard_msgs in #print axioms V2_main_v1

/-- info: 'Cert.KernelIdeal.KVal.V2_main_v2' depends on axioms: [propext, Classical.choice, Quot.sound] -/
#guard_msgs in #print axioms V2_main_v2

/-- info: 'Cert.KernelIdeal.KVal.V2_main_arg0' depends on axioms: [propext, Classical.choice, Quot.sound] -/
#guard_msgs in #print axioms V2_main_arg0

end Cert.KernelIdeal.KVal

end
-- ==== Proof.Payload1.lean ====
/-
  The scaled block at an index.

  A grid point (i0, i1) of the 8 x 8 grid holds a 1024 x 1 column block s of row scales, a 1 x 1024 row block t of
  column scales and a 1024 x 1024 block w of weights. What it stores at (p, q) is (s[p] * t[q]) * w[p, q], plus
  (s[p] * t[q]) * 1 when the entry lies on the diagonal of the whole matrix and 0 otherwise. The diagonal test is
  made on 32-bit words, i0 * 1024 + p against i1 * 1024 + q; both sums stay below 8192, far from 2^32, so the
  words agree exactly when the natural numbers do.
-/
import proofs.«106334_j3178275799590_2_alg».proof.Proof.Gen.KernelIdeal.Skeleton
import proofs.«106334_j3178275799590_2_alg».proof.Proof.Spec
import Idealize.ShloMosaic.Lib.ValueLayout

noncomputable section

namespace Cert.KernelIdeal.KVal1

open Cert.KernelIdeal Cert.KernelIdeal.Gen Idealize.ShloMosaic Idealize.ShloMosaic.TcCoe Idealize.ShloMosaic.ValueIdx

/-- With a, b below 8 and p, q below 1024 the 32-bit sums a * 1024 + p and b * 1024 + q do not wrap: they are equal
    as words exactly when they are equal as natural numbers. -/
theorem word_sum_eq_iff (a b p q : Nat) (ha : a < 8) (hb : b < 8) (hp : p < 1024) (hq : q < 1024) :
    (BitVec.ofNat 32 a * 1024#32 + BitVec.ofNat 32 p = BitVec.ofNat 32 b * 1024#32 + BitVec.ofNat 32 q)
      ↔ a * 1024 + p = b * 1024 + q := by
  rw [← BitVec.toNat_inj]
  simp only [BitVec.toNat_add, BitVec.toNat_mul, BitVec.toNat_ofNat]
  omega

/-- A choice made on the word comparison of the two sums is the choice made on the natural numbers. -/
theorem diag_select {α : Type} (a b p q : Nat) (ha : a < 8) (hb : b < 8) (hp : p < 1024) (hq : q < 1024) (A B : α) :
    Scalar.select (IntOp.cmpi .eq (IntOp.addi (Scalar.muli (BitVec.ofNat 32 a) 1024#32) (BitVec.ofNat 32 p))
        (IntOp.addi (Scalar.muli (BitVec.ofNat 32 b) 1024#32) (BitVec.ofNat 32 q))) A B
      = if a * 1024 + p = b * 1024 + q then A else B := by
  show (if BitVec.ofBool (BitVec.ofNat 32 a * 1024#32 + BitVec.ofNat 32 p == BitVec.ofNat 32 b * 1024#32 + BitVec.ofNat 32 q) = 1 then A else B) = _
  by_cases h : a * 1024 + p = b * 1024 + q
  · rw [if_pos h, (word_sum_eq_iff a b p q ha hb hp hq).mpr h]
    simp
  · rw [if_neg h]
    have h' := mt (word_sum_eq_iff a b p q ha hb hp hq).mp h
    rw [beq_false_of_ne h']
    exact if_neg (by decide)

/-- An [a, 1] column repeated along the second axis reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stored block at (p, q): the product of the two scales times the weight, plus that product times one where
    i0 * 1024 + p = i1 * 1024 + q and zero elsewhere. -/
theorem k1_pay1_apply (i : grid1.Coords) (v9 : Vec Ideal S1024x1 .f32) (v11 : Vec Ideal S1x1024 .f32) (v16 : Vec Ideal S1024x1024 .f32) (p q : Fin 1024) :
    k1_pay1 (F := Ideal) i v9 v11 v16 (ix2 p q)
      = (v9 (ix2 p (0 : Fin 1)) * v11 (ix2 (0 : Fin 1) q)) * v16 (ix2 p q)
        + (if (i 0).val * 1024 + p.val = (i 1).val * 1024 + q.val then (v9 (ix2 p (0 : Fin 1)) * v11 (ix2 (0 : Fin 1) q)) * Cert.Spec.one else Cert.Spec.zero) := by
  have hi0 : (i 0).val < 8 := (i 0).isLt
  have hi1 : (i 1).val < 8 := (i 1).isLt
  -- the column of row scales and the row of column scales, spread over the block
  have hcol : broadcastTo S1024x1024 (shapeCast S1024x1 v9 shapeCasts_S1024x1_S1024x1) broadcasts_S1024x1_S1024x1024 (ix2 p q)
      = v9 (ix2 p (0 : Fin 1)) := by
    rw [shapeCast_self]
    exact broadcastTo_a1_ab_apply v9 _ p q
  have hrow : broadcastTo S1024x1024 (shapeCast S1x1024 v11 shapeCasts_S1x1024_S1x1024) broadcasts_S1x1024_S1024x1024 (ix2 p q)
      = v11 (ix2 (0 : Fin 1) q) := by
    rw [shapeCast_self]
    exact broadcastTo_1b_ab_apply v11 _ p q
  -- the row and column counters inside the block
  have hr : iota Kind.tc S1024x1024 32 [0] iota_S1024x1024_d0_w32 (ix2 p q) = BitVec.ofNat 32 p.val :=
    iota_single_apply _ _ _ _ _ _
  have hc : iota Kind.tc S1024x1024 32 [1] iota_S1024x1024_d1_w32 (ix2 p q) = BitVec.ofNat 32 q.val :=
    iota_single_apply _ _ _ _ _ _
  unfold k1_pay1
  dsimp only
  rw [addf_apply, mulf_apply, mulf_apply, select_apply, mulf_apply, mulf_apply, hcol, hrow]
  show _ + Scalar.select (IntOp.cmpi .eq
      (IntOp.addi (Scalar.muli (BitVec.ofNat 32 (i 0).val) 1024#32) (iota Kind.tc S1024x1024 32 [0] iota_S1024x1024_d0_w32 (ix2 p q)))
      (IntOp.addi (Scalar.muli (BitVec.ofNat 32 (i 1).val) 1024#32) (iota Kind.tc S1024x1024 32 [1] iota_S1024x1024_d1_w32 (ix2 p q)))) _ _ = _
  rw [hr, hc, diag_select _ _ _ _ hi0 hi1 p.isLt q.isLt]
  rfl

end Cert.KernelIdeal.KVal1

end
-- ==== Proof.Region1.lean ====
/-
  The scaling region's output, as one matrix.

  The region runs 64 points, an 8 x 8 grid taken row by row. Point (i0, i1) reads rows i0 * 1024 .. i0 * 1024 + 1023 of
  the column of row scales, columns i1 * 1024 .. i1 * 1024 + 1023 of the row of column scales and the matching
  1024 x 1024 block of the weights, and writes the matching block of the result. Entry (p, q) of that block is entry
  (i0 * 1024 + p, i1 * 1024 + q) of the whole matrix, so the stored value, which tests i0 * 1024 + p = i1 * 1024 + q, is the
  scaled matrix's entry there, with its diagonal test row = column. The 64 blocks tile the 8192 x 8192 matrix: entry
  (r, s) lies in the block of point (r / 1024, s / 1024). Hence the array the region leaves is the scaled matrix of
  the arrays it found.
-/
import proofs.«106334_j3178275799590_2_alg».proof.Proof.FramePKernelIdeal
import proofs.«106334_j3178275799590_2_alg».proof.Proof.Payload1
import proofs.«106334_j3178275799590_2_alg».proof.Proof.Spec
import Idealize.ShloMosaic.Lib.Pipeline.Value

noncomputable section

namespace Cert.KernelIdeal.KVal1

open Cert.KernelIdeal Cert.KernelIdeal.Gen Cert.KernelIdeal.GenP Idealize.ShloMosaic Idealize.ShloMosaic.TcCoe Idealize.ShloMosaic.ValueIdx
open Idealize.ShloMosaic.Pipeline (Dat)

/-- The zero offsets of a whole-block access. -/
theorem hz : (![0, 0] : Fin 2 → Nat) = fun _ => 0 := funext fun a => by fin_cases a <;> rfl

/-- The four windows' block indices at a grid point are the point's coordinates: the column of row scales moves with
    the first, the row of column scales with the second, the weights and the result with both. -/
theorem idx_facts : ∀ t : Fin cfg1.N,
      win1_0.index t (0 : Fin 2) = ((grid1.coords t) 0).val ∧ win1_0.index t (1 : Fin 2) = 0
    ∧ win1_1.index t (0 : Fin 2) = 0 ∧ win1_1.index t (1 : Fin 2) = ((grid1.coords t) 1).val
    ∧ win1_2.index t (0 : Fin 2) = ((grid1.coords t) 0).val ∧ win1_2.index t (1 : Fin 2) = ((grid1.coords t) 1).val
    ∧ win1_3.index t (0 : Fin 2) = ((grid1.coords t) 0).val ∧ win1_3.index t (1 : Fin 2) = ((grid1.coords t) 1).val :=
  (by decide +kernel : ∀ t : Fin grid1.N, _)

/-- The 64 points run row by row: point t has coordinates (t / 8, t mod 8). -/
theorem coords_facts : ∀ t : Fin cfg1.N, ((grid1.coords t) 0).val = t.val / 8 ∧ ((grid1.coords t) 1).val = t.val % 8 :=
  (by decide +kernel : ∀ t : Fin grid1.N, _)

/-- The value a point stores at (p, q) is the scaled matrix at (r, s), when the point's blocks hold the column of
    row scales at r, the row of column scales at s and the weight at (r, s), and r, s are the entry's row and
    column in the whole matrix. -/
theorem point_value (i : grid1.Coords) (x0 : Vec Ideal S1024x1 .f32) (x1 : Vec Ideal S1x1024 .f32) (x2 : Vec Ideal S1024x1024 .f32)
    (col : FVec Ideal Cert.Spec.SN1 .f32) (row : FVec Ideal Cert.Spec.S1N .f32) (a : FVec Ideal Cert.Spec.SNN .f32)
    (p q : Fin 1024) (r s : Fin 8192)
    (hr : r.val = (i 0).val * 1024 + p.val) (hs : s.val = (i 1).val * 1024 + q.val)
    (h0 : x0 (ix2 p (0 : Fin 1)) = col (ix2 r (0 : Fin 1)))
    (h1 : x1 (ix2 (0 : Fin 1) q) = row (ix2 (0 : Fin 1) s))
    (h2 : x2 (ix2 p q) = a (ix2 r s)) :
    k1_pay1 (F := Ideal) i x0 x1 x2 (ix2 p q) = Cert.Spec.scaleK col row a (ix2 r s) := by
  rw [k1_pay1_apply, h0, h1, h2, ← hr, ← hs]
  rfl

/-- The block of row scales at a point, read at p, is the column at row i0 * 1024 + p. -/
theorem col_block_apply (V : (c : Dev nD) → (b : Ref sig .tc) → Buf (Elt Ideal) ((c : Thread nD τ).loc b)) (c : Dev nD) (t : Fin cfg1.N)
    (p : Fin 1024) (r : Fin 8192) (hr : r.val = ((grid1.coords t) 0).val * 1024 + p.val) :
    (iblk1 V c 0 t : Vec Ideal S1024x1 .f32) (ix2 p (0 : Fin 1)) = (V c main_v1 : Cert.Spec.SN1.Idx → EReal) (ix2 r (0 : Fin 1)) := by
  obtain ⟨e00, e01, -⟩ := idx_facts t
  unfold iblk1
  rw [View.read_apply]
  show V c main_v1 (((cfg1.win 0).blk t).view.emb (ix2 p (0 : Fin 1))) = V c main_v1 (ix2 r (0 : Fin 1))
  refine congrArg (V c main_v1) ?_
  funext ax; apply Fin.ext
  match ax with
  | ⟨0, _⟩ => show win1_0.index t (0 : Fin 2) * 1024 + 1 * p.val = r.val; omega
  | ⟨1, _⟩ => show win1_0.index t (1 : Fin 2) * 1 + 1 * 0 = 0; omega

/-- The block of column scales at a point, read at q, is the row at column i1 * 1024 + q. -/
theorem row_block_apply (V : (c : Dev nD) → (b : Ref sig .tc) → Buf (Elt Ideal) ((c : Thread nD τ).loc b)) (c : Dev nD) (t : Fin cfg1.N)
    (q : Fin 1024) (s : Fin 8192) (hs : s.val = ((grid1.coords t) 1).val * 1024 + q.val) :
    (iblk1 V c 1 t : Vec Ideal S1x1024 .f32) (ix2 (0 : Fin 1) q) = (V c main_v2 : Cert.Spec.S1N.Idx → EReal) (ix2 (0 : Fin 1) s) := by
  obtain ⟨-, -, e10, e11, -⟩ := idx_facts t
  unfold iblk1
  rw [View.read_apply]
  show V c main_v2 (((cfg1.win 1).blk t).view.emb (ix2 (0 : Fin 1) q)) = V c main_v2 (ix2 (0 : Fin 1) s)
  refine congrArg (V c main_v2) ?_
  funext ax; apply Fin.ext
  match ax with
  | ⟨0, _⟩ => show win1_1.index t (0 : Fin 2) * 1 + 1 * 0 = 0; omega
  | ⟨1, _⟩ => show win1_1.index t (1 : Fin 2) * 1024 + 1 * q.val = s.val; omega

/-- The block of weights at a point, read at (p, q), is the matrix at (i0 * 1024 + p, i1 * 1024 + q). -/
theorem weight_block_apply (V : (c : Dev nD) → (b : Ref sig .tc) → Buf (Elt Ideal) ((c : Thread nD τ).loc b)) (c : Dev nD) (t : Fin cfg1.N)
    (p q : Fin 1024) (r s : Fin 8192) (hr : r.val = ((grid1.coords t) 0).val * 1024 + p.val)
    (hs : s.val = ((grid1.coords t) 1).val * 1024 + q.val) :
    (iblk1 V c 2 t : Vec Ideal S1024x1024 .f32) (ix2 p q) = (V c main_arg0 : Cert.Spec.SNN.Idx → EReal) (ix2 r s) := by
  obtain ⟨-, -, -, -, e20, e21, -⟩ := idx_facts t
  unfold iblk1
  rw [View.read_apply]
  show V c main_arg0 (((cfg1.win 2).blk t).view.emb (ix2 p q)) = V c main_arg0 (ix2 r s)
  refine congrArg (V c main_arg0) ?_
  funext ax; apply Fin.ext
  match ax with
  | ⟨0, _⟩ => show win1_2.index t (0 : Fin 2) * 1024 + 1 * p.val = r.val; omega
  | ⟨1, _⟩ => show win1_2.index t (1 : Fin 2) * 1024 + 1 * q.val = s.val; omega

/-- What a point writes back is its block of the scaled matrix. -/
theorem flushed_eq (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal) (Cert.Spec.scaleK (V c main_v1) (V c main_v2) (V c main_arg0)) := by
  show (cfg1.win 3).cut (grid1.coords t) ((dat1 V c).after 3 t) = _
  rw [after1_3]
  unfold out1_3
  rw [View.canon_unit_zero hz]
  simp only [View.ld_unit_zero (S := S1024x1) hz, View.ld_unit_zero (S := S1x1024) hz, View.ld_unit_zero (S := S1024x1024) hz]
  funext j
  obtain ⟨-, -, -, -, -, -, e30, e31⟩ := idx_facts t
  have hj0 : (j 0).val < 1024 := (j 0).isLt
  have hj1 : (j 1).val < 1024 := (j 1).isLt
  have hc0 : ((grid1.coords t) 0).val < 8 := ((grid1.coords t) 0).isLt
  have hc1 : ((grid1.coords t) 1).val < 8 := ((grid1.coords t) 1).isLt
  have hy : ((win1 3).xinj (grid1.coords t) j : S1024x1024.Idx) = ix2 (⟨(j 0).val, hj0⟩ : Fin 1024) (⟨(j 1).val, hj1⟩ : Fin 1024) :=
    funext fun ax => by match ax with | ⟨0, _⟩ => rfl | ⟨1, _⟩ => rfl
  have hk : (((cfg1.win 3).blk t).view.emb j : Cert.Spec.SNN.Idx)
      = ix2 (⟨((grid1.coords t) 0).val * 1024 + (j 0).val, by omega⟩ : Fin 8192) (⟨((grid1.coords t) 1).val * 1024 + (j 1).val, by omega⟩ : Fin 8192) :=
    funext fun ax => Fin.ext (by
      match ax with
      | ⟨0, _⟩ => show win1_3.index t (0 : Fin 2) * 1024 + 1 * (j 0).val = ((grid1.coords t) 0).val * 1024 + (j 0).val; omega
      | ⟨1, _⟩ => show win1_3.index t (1 : Fin 2) * 1024 + 1 * (j 1).val = ((grid1.coords t) 1).val * 1024 + (j 1).val; omega)
  show k1_pay1 (F := Ideal) (grid1.coords t) (iblk1 V c 0 t) (iblk1 V c 1 t) (iblk1 V c 2 t) ((win1 3).xinj (grid1.coords t) j)
    = Cert.Spec.scaleK (V c main_v1) (V c main_v2) (V c main_arg0) (((cfg1.win 3).blk t).view.emb j)
  refine (congrArg (k1_pay1 (F := Ideal) (grid1.coords t) (iblk1 V c 0 t) (iblk1 V c 1 t) (iblk1 V c 2 t)) hy).trans ?_
  refine Eq.trans ?_ (congrArg (Cert.Spec.scaleK (V c main_v1) (V c main_v2) (V c main_arg0)) hk).symm
  exact point_value (grid1.coords t) (iblk1 V c 0 t) (iblk1 V c 1 t) (iblk1 V c 2 t) (V c main_v1) (V c main_v2) (V c main_arg0)
    ⟨(j 0).val, hj0⟩ ⟨(j 1).val, hj1⟩ ⟨((grid1.coords t) 0).val * 1024 + (j 0).val, by omega⟩ ⟨((grid1.coords t) 1).val * 1024 + (j 1).val, by omega⟩
    rfl rfl
    (col_block_apply V c t _ _ rfl) (row_block_apply V c t _ _ rfl) (weight_block_apply V c t _ _ _ _ rfl rfl)

/-- An entry of the matrix lies in a point's block exactly when each coordinate lies in the block's range. -/
theorem mem_blk (t : Fin cfg1.N) (i : S8192x8192.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- Every entry (r, s) lies in the block of the point (r / 1024, s / 1024), the point number (r / 1024) * 8 + s / 1024. -/
theorem cover (i : S8192x8192.Idx) : ∃ t : Fin cfg1.N, (cfg1.win 3).flush t = true ∧ i ∈ ((cfg1.win 3).blk t).view.set := by
  have hi0 : (i 0).val < 8192 := (i 0).isLt
  have hi1 : (i 1).val < 8192 := (i 1).isLt
  have hN : grid1.N = 64 := N_1
  let t : Fin cfg1.N := ⟨(i 0).val / 1024 * 8 + (i 1).val / 1024, by show _ < grid1.N; rw [hN]; omega⟩
  have ht : t.val = (i 0).val / 1024 * 8 + (i 1).val / 1024 := rfl
  obtain ⟨c0, c1⟩ := coords_facts t
  obtain ⟨-, -, -, -, -, -, e30, e31⟩ := idx_facts t
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

/-- The region's output array, once every point has written its block back, is the scaled matrix of the arrays the
    region found. -/
theorem scale_array (V : (c : Dev nD) → (b : Ref sig .tc) → Buf (Elt Ideal) ((c : Thread nD τ).loc b)) (c : Dev nD) :
    (dat1 (F := Ideal) V c).arrAt 3 cfg1.N = Cert.Spec.scaleK (V c main_v1) (V c main_v2) (V c main_arg0) :=
  (dat1 (F := Ideal) V c).arrAt_eq_of_cover 3 (Cert.Spec.scaleK (V c main_v1) (V c main_v2) (V c main_arg0))
    (fun t _ => flushed_eq V c t) cover

end Cert.KernelIdeal.KVal1

end
-- ==== Proof.KernelValue.lean ====
/-
  The first program's result array, as one function of the weight matrix.

  The run leaves the result buffer at what the second region's write-backs make of it. That region finds the column
  and the row of row scales (the first region's output, reshaped twice) and the weights as launched, and writes, block
  by block, the scaled matrix of those three arrays: the specification's function of the weights.
-/
import proofs.«106334_j3178275799590_2_alg».proof.Proof.KernelRun
import proofs.«106334_j3178275799590_2_alg».proof.Proof.HostMid
import proofs.«106334_j3178275799590_2_alg».proof.Proof.Region1
import proofs.«106334_j3178275799590_2_alg».proof.Proof.Spec

noncomputable section

namespace Cert.KernelIdeal.KVal

open Cert.KernelIdeal Cert.KernelIdeal.Gen Cert.KernelIdeal.GenP Idealize.ShloMosaic Idealize.ShloMosaic.TcCoe Idealize.SL.Sem

/-- The result buffer after the run is the scaled matrix of the launch weights. -/
theorem kernel_value (m : (ℓ : Loc nD τ sig) → Buf (Elt Ideal) ℓ) (ρ : Dev nD → PrngReg) (c : Dev nD) :
    W3 (F := Ideal) m ρ c (Proc.devRef .tc main_v3) = Cert.Spec.GK (m ((c.tc : Thread nD τ).loc main_arg0)) := by
  refine (W3_arr m ρ c 3).trans ?_
  rw [Cert.KernelIdeal.KVal1.scale_array (V2 m ρ) c, V2_main_v1, V2_main_v2, V2_main_arg0]
  rfl

/-- Every weakly fair execution ends with the result at the scaled matrix of the launch weights and the weights
    unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
        r.2.mem ((c.tc : Thread nD τ).loc main_v3) = Cert.Spec.GK (m ((c.tc : Thread nD τ).loc main_arg0))
      ∧ r.2.mem ((c.tc : Thread nD τ).loc main_arg0) = m ((c.tc : Thread nD τ).loc main_arg0)) :=
  (θ_run defs _ _).mono (fun _ h c => ⟨(h c).1.trans (kernel_value m ρ c), (h c).2⟩) (run_value m ρ)

end Cert.KernelIdeal.KVal

end
-- ==== Proof.RefIndices.lean ====
/-
  The index table of the reference's scatter, entry by entry.

  The reference builds the table of index pairs from the counting vector 0, 1, ..., 8191: it normalizes the vector
  twice (an entry below zero would have the extent 8192 added; none is), makes each normalized copy a column
  [8192, 1], and lays the two columns side by side into a table [8192, 2]. No entry of the counting vector is
  negative as a signed 32-bit word, since 8192 is far below 2^31; so both columns are the counting vector, and row e
  of the table is the pair (e, e), each component the 32-bit word of e, whose signed reading is e.
-/
import proofs.«106334_j3178275799590_2_alg».proof.Proof.Gen.ReferenceIdeal.Read
import Idealize.ShloMosaic.Lib.ValueIdx

noncomputable section

namespace Cert.ReferenceIdeal.RefIndices

open Cert.ReferenceIdeal Cert.ReferenceIdeal.Gen Cert.ReferenceIdeal.Read
open Idealize.ShloMosaic Idealize.ShloMosaic.ValueIdx

variable {F : FTy → Type} [FloatOps F]

/-- The 32-bit word of a number below 2^31 reads, signed, as that number. -/
theorem toInt_ofNat32 (e : Nat) (h : e < 2147483648) : (BitVec.ofNat 32 e).toInt = (e : Int) := by
  have h1 : (BitVec.ofNat 32 e).toNat = e := by
    rw [BitVec.toNat_ofNat]; exact Nat.mod_eq_of_lt (by omega)
  rw [BitVec.toInt_eq_toNat_cond, h1]
  rw [if_pos (by omega)]

/-- The word of a number below 2^31 is not below zero in the signed order. -/
theorem cmpi_slt_zero (e : Nat) (h : e < 2147483648) : IntOp.cmpi .slt (BitVec.ofNat 32 e) 0#32 = 0#1 := by
  have hs : (BitVec.ofNat 32 e).slt 0#32 = false := by
    unfold BitVec.slt
    rw [toInt_ofNat32 e h]
    simp
  show BitVec.ofBool ((BitVec.ofNat 32 e).slt 0#32) = 0#1
  rw [hs]; rfl

/-- The first normalized copy of the counting vector is the counting vector. -/
theorem val_main_v5_ix1 (e : Fin 8192) : val_main_v5 (F := F) (ix1 e) = BitVec.ofNat 32 e.val := by
  rw [val_main_v5_apply, val_main_v2_apply, val_main_v1_apply, val_main_c_apply, val_main_v0_apply]
  show Scalar.select (IntOp.cmpi .slt (BitVec.ofNat 32 e.val) 0#32) _ _ = _
  rw [cmpi_slt_zero e.val (by have := e.isLt; omega)]
  rfl

/-- The second normalized copy of the counting vector is the counting vector. -/
theorem val_main_v10_ix1 (e : Fin 8192) : val_main_v10 (F := F) (ix1 e) = BitVec.ofNat 32 e.val := by
  rw [val_main_v10_apply, val_main_v7_apply, val_main_v6_apply, val_main_c_1_apply, val_main_v0_apply]
  show Scalar.select (IntOp.cmpi .slt (BitVec.ofNat 32 e.val) 0#32) _ _ = _
  rw [cmpi_slt_zero e.val (by have := e.isLt; omega)]
  rfl

/-- Entry (e, 0) of either column reads the vector it was made from at e. -/
theorem idx_col (e : Fin 8192) (z : Fin 1) : idx_main_v11 (ix2 e z) = ix1 e :=
  funext fun a => Fin.ext (by match a with | ⟨0, _⟩ => rfl)

/-- Component 0 of pair e: the first column's entry e. -/
theorem val_main_v13_fst (e : Fin 8192) : val_main_v13 (F := F) (ix2 e (0 : Fin 2)) = BitVec.ofNat 32 e.val := by
  unfold val_main_v13
  rw [concatenate_pair_apply_left (t := S8192x2) (1 : Fin 2) (val_main_v11 (F := F)) (val_main_v12 (F := F))
    concatenates_S8192x1_S8192x1_S8192x2_d1 (ix2 e (0 : Fin 2)) rfl (ix2 e (0 : Fin 1))
    (by
      intro b
      match b with
      | ⟨0, _⟩ => rfl
      | ⟨1, _⟩ => rfl)]
  rw [val_main_v11_apply, idx_col, val_main_v5_ix1]

/-- Component 1 of pair e: the second column's entry e. -/
theorem val_main_v13_snd (e : Fin 8192) : val_main_v13 (F := F) (ix2 e (1 : Fin 2)) = BitVec.ofNat 32 e.val := by
  unfold val_main_v13
  rw [concatenate_pair_apply_right (t := S8192x2) (1 : Fin 2) (val_main_v11 (F := F)) (val_main_v12 (F := F))
    concatenates_S8192x1_S8192x1_S8192x2_d1 (ix2 e (1 : Fin 2)) rfl rfl (ix2 e (0 : Fin 1))
    (by
      intro b hb
      match b, hb with
      | ⟨0, _⟩, _ => rfl
      | ⟨1, _⟩, hb => exact absurd rfl hb)
    (by show 0 + 1 = 1; rfl)]
  rw [val_main_v12_apply]
  show val_main_v10 (F := F) (idx_main_v11 (ix2 e (0 : Fin 1))) = _
  rw [idx_col, val_main_v10_ix1]

/-- Component 0 of pair e of the table, read signed, is e. -/
theorem val_main_v13_fst_toInt (e : Fin 8192) : (val_main_v13 (F := F) (ix2 e (0 : Fin 2))).toInt = (e.val : Int) := by
  rw [val_main_v13_fst]; exact toInt_ofNat32 e.val (by have := e.isLt; omega)

/-- Component 1 of pair e of the table, read signed, is e: pair e is (e, e). -/
theorem val_main_v13_snd_toInt (e : Fin 8192) : (val_main_v13 (F := F) (ix2 e (1 : Fin 2))).toInt = (e.val : Int) := by
  rw [val_main_v13_snd]; exact toInt_ofNat32 e.val (by have := e.isLt; omega)

end Cert.ReferenceIdeal.RefIndices

end
-- ==== Proof.LibGatherScatter.lean ====
/-
  Row gathers and accumulating row scatters on the host, read at an index.

  `x[idx]` of an array `x : [N, C]` (or a flat `x : [N]`) at a column of start indices `idx : [M, 1]` lowers to a
  `stablehlo.gather` that collapses axis 0: result row `e` is operand row `idx[e, 0]`, the start index read as a signed
  integer and clamped into `[0, N - 1]`. `segment_sum` / `.at[idx].add` lowers to a `stablehlo.scatter` with an `add`
  body that inserts axis 0: at the ideal instance operand row `n` receives the sum of the update rows `e` whose start
  index, read signed and NOT clamped, is exactly `n`; an update whose start index is outside `[0, N)` is dropped.
  Everything here is generic in the extents `N`, `M`, `C` and in the width of the index words.
-/
import Idealize.ShloMosaic.PureOps.Ideal
import Idealize.ShloMosaic.Lib.ValueIdx

noncomputable section

open scoped BigOperators

namespace Idealize.ShloMosaic.RowIdx

open Idealize.ShloMosaic Idealize.ShloMosaic.ValueIdx

/-! ## A start index clamped into the rows -/

/-- A signed start index clamped into `[0, N - 1]`: the row a gather reads. -/
def clampRow (N : Nat) (hN : 0 < N) {w : Nat} (v : BitVec w) : Fin N := ⟨min v.toInt.toNat (N - 1), by omega⟩

/-- A start index that IS a row number is its own clamp. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  rw [h, Int.toNat_natCast]
  have := n.isLt
  omega

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## Gathers of rows -/

section Gather
variable {α : Type}

/-- The dimension numbers of `x[idx]` for `x : [N, C]`, `idx : [M, 1]`: axis 0 collapsed and indexed, axis 1 an offset axis. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Result element `(e, q)` of a row gather is the operand at row `clamp idx[e, 0]`, column `q`. -/
theorem rowGather_apply {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (q : Fin C) :
    Host.gather (rowGatherDims N M C wf) x idx (ix2 e q) = x (ix2 (clampRow N hN (idx (ix2 e (0 : Fin 1)))) q) := by
  unfold Host.gather
  congr 1
  funext a
  refine Fin.ext ?_
  match a with
  | ⟨0, _⟩ =>
    show (rowGatherDims N M C wf).start (ix2 e q) idx 0 + (rowGatherDims N M C wf).batchCoord (ix2 e q) 0
      + (rowGatherDims N M C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e q) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e q) idx 1 + (rowGatherDims N M C wf).batchCoord (ix2 e q) 1
      + (rowGatherDims N M C wf).offCoord (ix2 e q) 1 = q.val
    rw [GatherDims.batchCoord_eq_zero _ _ _ List.not_mem_nil]
    have hs : (rowGatherDims N M C wf).start (ix2 e q) idx 1 = 0 := by
      unfold GatherDims.start
      rw [dif_neg (fun h => absurd (List.mem_singleton.mp h) (show ¬ ((1 : Fin 2) = 0) by decide))]
    rw [hs]
    simp only [Nat.add_zero, Nat.zero_add]
    rfl

/-- The dimension numbers of `x[idx]` for a flat `x : [N]`, `idx : [M, 1]`. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Result element `e` of a flat gather is the operand at `clamp idx[e, 0]`. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e) = x (ix1 (clampRow N hN (idx (ix2 e (0 : Fin 1))))) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating scatters of rows, at the ideal instance -/

/-- An update lands at operand index `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro he a
      have h1 : (d.start j idx a + (d.window j a : Int)).toNat = (i a).val := congrArg (fun f => (f a).val) he
      have h2 := (h a).1
      omega
    · intro he
      funext a
      apply Fin.ext
      show (d.start j idx a + (d.window j a : Int)).toNat = (i a).val
      rw [he a, Int.toNat_natCast]
  · next h =>
    constructor
    · intro he; cases he
    · intro he
      refine absurd (fun a => ⟨?_, ?_⟩) h
      · rw [he a]; exact Int.natCast_nonneg _
      · rw [he a]; exact_mod_cast (i a).isLt

/-- The dimension numbers of `x.at[idx].add(upd)` for `x : [N, C]`, `idx : [M, 1]`, `upd : [M, C]`: axis 0 inserted and
    indexed, axis 1 a window axis. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (q' : Fin C)

theorem rowScatter_start0 : (rowScatterDims N M C wf).start (ix2 e q') idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e q') ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 : (rowScatterDims N M C wf).start (ix2 e q') idx 1 = 0 := by
  unfold ScatterDims.start
  rw [dif_neg (fun h => absurd (List.mem_singleton.mp h) (show ¬ ((1 : Fin 2) = 0) by decide))]

theorem rowScatter_window0 : (rowScatterDims N M C wf).window (ix2 e q') 0 = 0 := by
  have hmem : ¬ ((0 : Fin 2) ∈ (rowScatterDims N M C wf).sKept) := by
    show (0 : Fin 2) ∉ ([1] : List (Fin 2)); decide
  unfold ScatterDims.window
  rw [dif_neg hmem]

theorem rowScatter_window1 : (rowScatterDims N M C wf).window (ix2 e q') 1 = q'.val := by
  have hmem : (1 : Fin 2) ∈ (rowScatterDims N M C wf).sKept := by
    show (1 : Fin 2) ∈ ([1] : List (Fin 2)); decide
  unfold ScatterDims.window
  rw [dif_pos hmem]
  rfl

/-- Update `(e, q')` lands at `(n, q)` exactly when its start index is `n` and the columns agree. -/
theorem rowScatter_lands_iff (n : Fin N) (q : Fin C) :
    (rowScatterDims N M C wf).resultIdx? (ix2 e q') idx = some (ix2 n q)
      ↔ (idx (ix2 e (0 : Fin 1))).toInt = (n.val : Int) ∧ q' = q := by
  rw [resultIdx?_eq_some_iff]
  constructor
  · intro h
    have h0 := h 0
    have h1 := h 1
    rw [rowScatter_start0, rowScatter_window0] at h0
    rw [rowScatter_start1, rowScatter_window1] at h1
    have h0' : (idx (ix2 e (0 : Fin 1))).toInt + ((0 : Nat) : Int) = (n.val : Int) := h0
    have h1' : (0 : Int) + (q'.val : Int) = (q.val : Int) := h1
    refine ⟨by simpa using h0', Fin.ext (by omega)⟩
  · rintro ⟨h0, rfl⟩ a
    match a with
    | ⟨0, _⟩ =>
      show (rowScatterDims N M C wf).start (ix2 e q') idx 0 + ((rowScatterDims N M C wf).window (ix2 e q') 0 : Int) = (n.val : Int)
      rw [rowScatter_start0, rowScatter_window0, h0]; simp
    | ⟨1, _⟩ =>
      show (rowScatterDims N M C wf).start (ix2 e q') idx 1 + ((rowScatterDims N M C wf).window (ix2 e q') 1 : Int) = (q'.val : Int)
      rw [rowScatter_start1, rowScatter_window1]; simp

end RowScatter

/-- THE ROW SCATTER-ADD READ AT `(n, q)`: the operand there plus the sum, over the update rows `e` whose start index is
    `n`, of the update at `(e, q)`. -/
theorem rowScatterAdd_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (q : Fin C) :
    Ideal.hostScatterAdd (rowScatterDims N M C wf) x idx upd (ix2 n q)
      = x (ix2 n q) + ∑ e ∈ Finset.univ.filter (fun e : Fin M => (idx (ix2 e (0 : Fin 1))).toInt = (n.val : Int)), upd (ix2 e q) := by
  unfold Ideal.hostScatterAdd
  congr 1
  rw [Finset.sum_filter, sum_idx2, Finset.sum_filter]
  refine Finset.sum_congr rfl fun e _ => ?_
  simp only [rowScatter_lands_iff]
  by_cases h : (idx (ix2 e (0 : Fin 1))).toInt = (n.val : Int)
  · simp only [h, true_and, if_true]
    rw [Finset.sum_ite_eq' Finset.univ q (fun b => upd (ix2 e b))]
    simp
  · simp only [h, false_and, if_false, Finset.sum_const_zero]

/-- The dimension numbers of `x.at[idx].add(upd)` for a flat `x : [N]`, `idx : [M, 1]`, `upd : [M]`. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section FlatScatter
variable {N M w : Nat} (wf : ScatterDims.WF ⟨1, ![N]⟩ ⟨2, ![M, 1]⟩ ⟨1, ![M]⟩ [] [0] [0] 1)
  (idx : IVec ⟨2, ![M, 1]⟩ w) (e : Fin M)

theorem flatScatter_start0 : (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem flatScatter_window0 : (flatScatterDims N M wf).window (ix1 e) 0 = 0 := by
  have hmem : ¬ ((0 : Fin 1) ∈ (flatScatterDims N M wf).sKept) := by
    show (0 : Fin 1) ∉ ([] : List (Fin 1)); decide
  unfold ScatterDims.window
  rw [dif_neg hmem]

/-- Update `e` lands at `n` exactly when its start index is `n`. -/
theorem flatScatter_lands_iff (n : Fin N) :
    (flatScatterDims N M wf).resultIdx? (ix1 e) idx = some (ix1 n) ↔ (idx (ix2 e (0 : Fin 1))).toInt = (n.val : Int) := by
  rw [resultIdx?_eq_some_iff]
  constructor
  · intro h
    have h0 := h 0
    rw [flatScatter_start0, flatScatter_window0] at h0
    have h0' : (idx (ix2 e (0 : Fin 1))).toInt + ((0 : Nat) : Int) = (n.val : Int) := h0
    simpa using h0'
  · intro h0 a
    obtain rfl : a = 0 := Subsingleton.elim _ _
    show (flatScatterDims N M wf).start (ix1 e) idx 0 + ((flatScatterDims N M wf).window (ix1 e) 0 : Int) = (n.val : Int)
    rw [flatScatter_start0, flatScatter_window0, h0]; simp

end FlatScatter

/-- THE FLAT SCATTER-ADD READ AT `n`: the operand there plus the sum of the updates whose start index is `n`. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (n : Fin N) :
    Ideal.hostScatterAdd (flatScatterDims N M wf) x idx upd (ix1 n)
      = x (ix1 n) + ∑ e ∈ Finset.univ.filter (fun e : Fin M => (idx (ix2 e (0 : Fin 1))).toInt = (n.val : Int)), upd (ix1 e) := by
  unfold Ideal.hostScatterAdd
  congr 1
  rw [Finset.sum_filter, sum_idx1, Finset.sum_filter]
  refine Finset.sum_congr rfl fun e _ => ?_
  simp only [flatScatter_lands_iff]

end Idealize.ShloMosaic.RowIdx

end
-- ==== Proof.LibPointScatter.lean ====
/-
  Accumulating point scatters on the host, read at an index.

  `x.at[i0, i1].add(upd)` for a matrix `x : [N0, N1]`, a table of index pairs `idx : [M, 2]` and one update value per
  pair `upd : [M]` lowers to a `stablehlo.scatter` with an `add` body in which BOTH operand axes are inserted window
  axes, both are named by the index vector (component 0 the row, component 1 the column), and the updates have no
  window axis: update `e` is one number, added at the single element `(idx[e, 0], idx[e, 1])`, the two components read
  as signed integers and NOT clamped; a pair outside `[0, N0) x [0, N1)` is dropped. At the ideal instance element
  `(n, q)` of the result is therefore the operand there plus the sum of the updates whose pair is exactly `(n, q)`.
  Everything here is generic in the extents `N0`, `N1`, `M` and in the width of the index words.
-/
import proofs.«106334_j3178275799590_2_alg».proof.Proof.LibGatherScatter

noncomputable section

open scoped BigOperators

namespace Idealize.ShloMosaic.RowIdx

open Idealize.ShloMosaic Idealize.ShloMosaic.ValueIdx

/-- The dimension numbers of `x.at[i0, i1].add(upd)` for `x : [N0, N1]`, `idx : [M, 2]`, `upd : [M]`: both operand axes
    inserted and indexed (component `c` of the index vector names operand axis `c`), no window axis. -/
abbrev pointScatterDims (N0 N1 M : Nat)
    (wf : ScatterDims.WF ⟨2, ![N0, N1]⟩ ⟨2, ![M, 2]⟩ ⟨1, ![M]⟩ [] [0, 1] [0, 1] 1) :
    ScatterDims ⟨2, ![N0, N1]⟩ ⟨2, ![M, 2]⟩ ⟨1, ![M]⟩ where
  updateWindowDims := []
  insertedWindowDims := [0, 1]
  scatterDimsToOperandDims := [0, 1]
  indexVectorDim := 1
  wf := wf

section PointScatter
variable {N0 N1 M w : Nat} (wf : ScatterDims.WF ⟨2, ![N0, N1]⟩ ⟨2, ![M, 2]⟩ ⟨1, ![M]⟩ [] [0, 1] [0, 1] 1)
  (idx : IVec ⟨2, ![M, 2]⟩ w) (e : Fin M)

/-- On the row axis the window of update `e` starts at component 0 of its index pair, read signed. -/
theorem pointScatter_start0 :
    (pointScatterDims N0 N1 M wf).start (ix1 e) idx 0 = (idx (ix2 e (0 : Fin 2))).toInt := by
  unfold ScatterDims.start
  rw [dif_pos (show (0 : Fin 2) ∈ (pointScatterDims N0 N1 M wf).scatterDimsToOperandDims from List.mem_cons_self)]
  have hsi : (pointScatterDims N0 N1 M wf).siIdx (ix1 e)
      ⟨List.idxOf (0 : Fin 2) (pointScatterDims N0 N1 M wf).scatterDimsToOperandDims,
        List.idxOf_lt_length_iff.2 List.mem_cons_self⟩ = ix2 e (0 : Fin 2) := by
    funext b; refine Fin.ext ?_
    match b with
    | ⟨0, _⟩ => rfl
    | ⟨1, _⟩ => rfl
  rw [hsi]

/-- On the column axis the window of update `e` starts at component 1 of its index pair, read signed. -/
theorem pointScatter_start1 :
    (pointScatterDims N0 N1 M wf).start (ix1 e) idx 1 = (idx (ix2 e (1 : Fin 2))).toInt := by
  have hmem : (1 : Fin 2) ∈ (pointScatterDims N0 N1 M wf).scatterDimsToOperandDims :=
    List.mem_cons_of_mem _ List.mem_cons_self
  unfold ScatterDims.start
  rw [dif_pos hmem]
  have hsi : (pointScatterDims N0 N1 M wf).siIdx (ix1 e)
      ⟨List.idxOf (1 : Fin 2) (pointScatterDims N0 N1 M wf).scatterDimsToOperandDims,
        List.idxOf_lt_length_iff.2 hmem⟩ = ix2 e (1 : Fin 2) := by
    funext b; refine Fin.ext ?_
    match b with
    | ⟨0, _⟩ => rfl
    | ⟨1, _⟩ => rfl
  rw [hsi]

/-- Both operand axes are inserted: an update has no window coordinate on either. -/
theorem pointScatter_window (a : Fin 2) : (pointScatterDims N0 N1 M wf).window (ix1 e) a = 0 := by
  have hmem : ¬ (a ∈ (pointScatterDims N0 N1 M wf).sKept) := by
    show a ∉ ([] : List (Fin 2)); exact List.not_mem_nil
  unfold ScatterDims.window
  rw [dif_neg hmem]

/-- Update `e` lands at `(n, q)` exactly when its index pair, read signed, is `(n, q)`. -/
theorem pointScatter_lands_iff (n : Fin N0) (q : Fin N1) :
    (pointScatterDims N0 N1 M wf).resultIdx? (ix1 e) idx = some (ix2 n q)
      ↔ (idx (ix2 e (0 : Fin 2))).toInt = (n.val : Int) ∧ (idx (ix2 e (1 : Fin 2))).toInt = (q.val : Int) := by
  rw [resultIdx?_eq_some_iff]
  constructor
  · intro h
    have h0 := h 0
    have h1 := h 1
    rw [pointScatter_start0, pointScatter_window] at h0
    rw [pointScatter_start1, pointScatter_window] at h1
    have h0' : (idx (ix2 e (0 : Fin 2))).toInt + ((0 : Nat) : Int) = (n.val : Int) := h0
    have h1' : (idx (ix2 e (1 : Fin 2))).toInt + ((0 : Nat) : Int) = (q.val : Int) := h1
    exact ⟨by simpa using h0', by simpa using h1'⟩
  · rintro ⟨h0, h1⟩ a
    match a with
    | ⟨0, _⟩ =>
      show (pointScatterDims N0 N1 M wf).start (ix1 e) idx 0
        + ((pointScatterDims N0 N1 M wf).window (ix1 e) 0 : Int) = (n.val : Int)
      rw [pointScatter_start0, pointScatter_window, h0]; simp
    | ⟨1, _⟩ =>
      show (pointScatterDims N0 N1 M wf).start (ix1 e) idx 1
        + ((pointScatterDims N0 N1 M wf).window (ix1 e) 1 : Int) = (q.val : Int)
      rw [pointScatter_start1, pointScatter_window, h1]; simp

end PointScatter

/-- THE POINT SCATTER-ADD READ AT `(n, q)`: the operand there plus the sum of the updates whose index pair is `(n, q)`. -/
theorem pointScatterAdd_apply {N0 N1 M w : Nat}
    (wf : ScatterDims.WF ⟨2, ![N0, N1]⟩ ⟨2, ![M, 2]⟩ ⟨1, ![M]⟩ [] [0, 1] [0, 1] 1)
    (x : (⟨2, ![N0, N1]⟩ : Shape).Idx → EReal) (idx : IVec ⟨2, ![M, 2]⟩ w) (upd : (⟨1, ![M]⟩ : Shape).Idx → EReal)
    (n : Fin N0) (q : Fin N1) :
    Ideal.hostScatterAdd (pointScatterDims N0 N1 M wf) x idx upd (ix2 n q)
      = x (ix2 n q) + ∑ e ∈ Finset.univ.filter (fun e : Fin M =>
          (idx (ix2 e (0 : Fin 2))).toInt = (n.val : Int) ∧ (idx (ix2 e (1 : Fin 2))).toInt = (q.val : Int)), upd (ix1 e) := by
  unfold Ideal.hostScatterAdd
  congr 1
  rw [Finset.sum_filter, sum_idx1, Finset.sum_filter]
  refine Finset.sum_congr rfl fun e _ => ?_
  simp only [pointScatter_lands_iff]

/-- The host's accumulating point scatter at `(n, q)`, stated for the host operation itself at the ideal instance
    (which is, by definition, the exact sum): the operand there plus the updates whose index pair is `(n, q)`. -/
theorem host_pointScatterAdd_apply {N0 N1 M w : Nat} {φ : FTy}
    (wf : ScatterDims.WF ⟨2, ![N0, N1]⟩ ⟨2, ![M, 2]⟩ ⟨1, ![M]⟩ [] [0, 1] [0, 1] 1)
    (x : FVec Ideal ⟨2, ![N0, N1]⟩ φ) (idx : IVec ⟨2, ![M, 2]⟩ w) (upd : FVec Ideal ⟨1, ![M]⟩ φ)
    (n : Fin N0) (q : Fin N1) :
    Host.scatterAdd (F := Ideal) (pointScatterDims N0 N1 M wf) x idx upd (ix2 n q)
      = x (ix2 n q) + ∑ e ∈ Finset.univ.filter (fun e : Fin M =>
          (idx (ix2 e (0 : Fin 2))).toInt = (n.val : Int) ∧ (idx (ix2 e (1 : Fin 2))).toInt = (q.val : Int)), upd (ix1 e) :=
  pointScatterAdd_apply wf x idx upd n q

/-- When update `e` carries the pair `(e, e)` (an identity table) and there are as many updates as rows, the updates
    landing at `(n, q)` are the single update `n` on the diagonal `n = q`, and none off it. -/
theorem diag_filter_sum {A : Type*} [AddCommMonoid A] {N0 N1 w : Nat} (idx : IVec ⟨2, ![N0, 2]⟩ w)
    (h0 : ∀ e : Fin N0, (idx (ix2 e (0 : Fin 2))).toInt = (e.val : Int))
    (h1 : ∀ e : Fin N0, (idx (ix2 e (1 : Fin 2))).toInt = (e.val : Int))
    (f : Fin N0 → A) (n : Fin N0) (q : Fin N1) :
    ∑ e ∈ Finset.univ.filter (fun e : Fin N0 =>
        (idx (ix2 e (0 : Fin 2))).toInt = (n.val : Int) ∧ (idx (ix2 e (1 : Fin 2))).toInt = (q.val : Int)), f e
      = if n.val = q.val then f n else 0 := by
  rw [Finset.sum_filter]
  simp only [h0, h1]
  by_cases hnq : n.val = q.val
  · rw [if_pos hnq]
    rw [Finset.sum_eq_single n]
    · rw [if_pos ⟨rfl, by exact_mod_cast hnq⟩]
    · intro b _ hb
      rw [if_neg]
      rintro ⟨hb0, _⟩
      exact hb (Fin.ext (by exact_mod_cast hb0))
    · intro h; exact absurd (Finset.mem_univ n) h
  · rw [if_neg hnq]
    refine Finset.sum_eq_zero fun b _ => ?_
    rw [if_neg]
    rintro ⟨hb0, hb1⟩
    apply hnq
    have : (n.val : Int) = (q.val : Int) := by rw [← hb0, ← hb1]
    exact_mod_cast this

end Idealize.ShloMosaic.RowIdx

end
-- ==== Proof.RefValue.lean ====
/-
  The reference's result as a function of the weights, entry by entry.

  The reference adds 1.0 to the weight matrix at the index pairs (e, e), e = 0, ..., 8191 — an accumulating scatter
  whose table of pairs is the counting vector twice — so the scattered matrix is the weights with one added on the
  diagonal. It sums each row of that matrix from 0.0, raises the sums to the power -0.5, and multiplies the scattered
  matrix by the resulting scale of its row on the left and of its column on the right. Entry (r, c) of the result is
  therefore (t_r * b[r, c]) * t_c with b[r, c] = a[r, c] + [r = c] and t_r = (0 + sum_k b[r, k]) ^ (-1/2): the
  specification's second function.
-/
import proofs.«106334_j3178275799590_2_alg».proof.Proof.Gen.ReferenceIdeal.Read
import proofs.«106334_j3178275799590_2_alg».proof.Proof.RefIndices
import proofs.«106334_j3178275799590_2_alg».proof.Proof.LibPointScatter
import proofs.«106334_j3178275799590_2_alg».proof.Proof.Spec

noncomputable section

open scoped BigOperators

namespace Cert.ReferenceIdeal.RefValue

open Cert.ReferenceIdeal Cert.ReferenceIdeal.Gen Cert.ReferenceIdeal.Read Cert.ReferenceIdeal.RefIndices
open Idealize.ShloMosaic Idealize.ShloMosaic.ValueIdx Idealize.ShloMosaic.RowIdx

/-- The scattered matrix at (r, k): update e adds 1.0 at (e, e), so entry (r, k) receives 1.0 exactly when r = k. -/
theorem val_main_v15_ix2 (x0 : FVec Ideal S8192x8192 .f32) (r k : Fin 8192) :
    val_main_v15 (F := Ideal) x0 (ix2 r k) = Cert.Spec.aR x0 (ix2 r k) := by
  unfold val_main_v15
  refine (host_pointScatterAdd_apply (N0 := 8192) (N1 := 8192) (M := 8192) scatter_S8192x8192_S8192x2_S8192_n_01_01_1_wf
    x0 (val_main_v13 (F := Ideal)) (val_main_v14 (F := Ideal)) r k).trans ?_
  rw [diag_filter_sum (N1 := 8192) (val_main_v13 (F := Ideal)) val_main_v13_fst_toInt val_main_v13_snd_toInt
    (fun e => val_main_v14 (F := Ideal) (ix1 e)) r k]
  rw [val_main_v14_apply, val_main_cst_apply, Ideal.ofBits_def]
  rfl

/-- The row scale at r: the row sum of the scattered matrix from 0.0, to the power -0.5. -/
theorem val_main_v18_ix1 (x0 : FVec Ideal S8192x8192 .f32) (r : Fin 8192) :
    val_main_v18 (F := Ideal) x0 (ix1 r) = Cert.Spec.dpR x0 r := by
  rw [val_main_v18_apply, val_main_v16_apply, val_main_v17_apply, val_main_cst_4_apply, val_main_cst_3_apply,
    Ideal.hostPowf_def, Ideal.ofBits_def, Ideal.ofBits_def]
  refine congrArg (fun s => Ideal.pow (Cert.Spec.zero + s) Cert.Spec.mhalf) (Finset.sum_congr rfl fun k _ => ?_)
  have hk : idx_main_v16 (ix1 r) k = ix2 r k :=
    funext fun a => Fin.ext (by match a with | ⟨0, _⟩ => rfl | ⟨1, _⟩ => rfl)
  rw [hk, val_main_v15_ix2]

/-- THE REFERENCE IS THE SPECIFICATION'S SECOND FUNCTION. -/
theorem ref_value (x0 : FVec Ideal S8192x8192 .f32) :
    Cert.ReferenceIdeal.Read.val_main_v24 (F := Ideal) x0 = Cert.Spec.GR x0 := by
  funext j
  obtain ⟨r, c, rfl⟩ : ∃ (r c : Fin 8192), j = ix2 r c := ⟨j 0, j 1, eq_ix2 j⟩
  rw [val_main_v24_apply, val_main_v21_apply, val_main_v20_apply, val_main_v19_apply, val_main_v23_apply,
    val_main_v22_apply]
  have er : idx_main_v19 (idx_main_v20 (ix2 r c)) = ix1 r :=
    funext fun a => Fin.ext (by match a with | ⟨0, _⟩ => rfl)
  have ec : idx_main_v22 (idx_main_v23 (ix2 r c)) = ix1 c :=
    funext fun a => Fin.ext (by match a with | ⟨0, _⟩ => rfl)
  rw [er, ec, val_main_v18_ix1, val_main_v18_ix1, val_main_v15_ix2, Ideal.mulf_def, Ideal.mulf_def]
  rfl

end Cert.ReferenceIdeal.RefValue

end
-- ==== Proof.lean ====
/-
  A degree-normalised weight matrix, computed two ways, is one matrix.

  For an 8192 x 8192 matrix a of real weights whose every row sum plus one is positive, write d_r = sum_k a[r,k] + 1 and
  w_r = d_r^(-1/2). One program computes w by a reciprocal square root of each row's sum plus one, then returns
  (w_r w_c) a[r,c], adding (w_r w_c) on the diagonal. The other adds one on the diagonal first, b = a + I, sums the rows
  of b (the same d), raises to the power -1/2 and returns (w_r b[r,c]) w_c. Over the extended reals the reciprocal
  square root and the power -1/2 agree exactly on the positive reals, and with every w_r a real number the two entries are
  equal by distributivity; both facts need d_r > 0, which the precondition states beside the finiteness of the entries.

  The modules: Spec states both results entry by entry; Algebra proves them equal under the two facts; PreFacts reads the
  two facts out of the precondition; KernelRun, Region0, HostMid, Payload1, Region1 and KernelValue read the first
  program's result array off its run (two regions of blocks with two reshapes between); LibPointScatter, RefIndices and
  RefValue read the second program's result entry by entry (the diagonal fill is an accumulating scatter at the points
  (e, e)).
-/
import proofs.«106334_j3178275799590_2_alg».proof.Defs
import proofs.«106334_j3178275799590_2_alg».proof.Proof.Gen.Kernel
import proofs.«106334_j3178275799590_2_alg».proof.Proof.Gen.Kernel.Skeleton
import proofs.«106334_j3178275799590_2_alg».proof.Proof.Gen.Kernel.Launch
import proofs.«106334_j3178275799590_2_alg».proof.Proof.Gen.Kernel.Points
import proofs.«106334_j3178275799590_2_alg».proof.Proof.Gen.KernelIdeal
import proofs.«106334_j3178275799590_2_alg».proof.Proof.Gen.KernelIdeal.Skeleton
import proofs.«106334_j3178275799590_2_alg».proof.Proof.Gen.KernelIdeal.Launch
import proofs.«106334_j3178275799590_2_alg».proof.Proof.Gen.KernelIdeal.Points
import proofs.«106334_j3178275799590_2_alg».proof.Proof.Gen.ReferenceIdeal
import proofs.«106334_j3178275799590_2_alg».proof.Proof.Gen.ReferenceIdeal.Run
import proofs.«106334_j3178275799590_2_alg».proof.Proof.Gen.ReferenceIdeal.Read
import proofs.«106334_j3178275799590_2_alg».proof.Proof.Gen.Pre_finite_inputs
import proofs.«106334_j3178275799590_2_alg».proof.Proof.FramePKernel
import proofs.«106334_j3178275799590_2_alg».proof.Proof.FramePKernelIdeal
import proofs.«106334_j3178275799590_2_alg».proof.Proof.Spec
import proofs.«106334_j3178275799590_2_alg».proof.Proof.Algebra
import proofs.«106334_j3178275799590_2_alg».proof.Proof.PreFacts
import proofs.«106334_j3178275799590_2_alg».proof.Proof.KernelValue
import proofs.«106334_j3178275799590_2_alg».proof.Proof.RefValue
import Idealize.ShloMosaic.Adequacy
import Idealize.ShloMosaic.Init

noncomputable section

namespace Cert.Proof

open Idealize.ShloMosaic Idealize.SL.Sem

section
variable [hK : Cert.Kernel.Facts] [hKI : Cert.KernelIdeal.Facts] [hRI : Cert.ReferenceIdeal.Facts]
  [hP : Cert.Pre_finite_inputs.Facts]

/-- Both idealized programs, from memories agreeing on the weights that satisfy the precondition, end with the scaled
    matrix of the weights: the first by its run read back, the second by its run read entry by entry and the equality
    of the two results under the precondition's two facts. -/
theorem algebraic : Cert.algebraic_KernelIdeal_ReferenceIdeal := by
  intro m ρ m' ρ' hpre hagree
  refine ⟨fun c => Cert.Spec.GK (m ((c.tc : Thread Cert.KernelIdeal.nD Cert.KernelIdeal.τ).loc Cert.KernelIdeal.main_arg0)),
    Cert.KernelIdeal.KVal.run m ρ, ?_⟩
  refine (θ_run Cert.ReferenceIdeal.defs _ _).mono (fun _ h c => ⟨?_, (h c).2⟩)
    (Cert.ReferenceIdeal.Value.run (F := Ideal) m' ρ')
  obtain ⟨hreal, hpos⟩ := Cert.PreFacts.facts _ (hpre c)
  rw [(h c).1, Cert.ReferenceIdeal.Read.val_main_v24_eq, Cert.ReferenceIdeal.RefValue.ref_value, hagree c]
  exact (Cert.Spec.GK_eq_GR _ hreal hpos).symm

end

theorem claim : Cert.Claim :=
  ⟨Cert.Kernel.Gen.facts, Cert.KernelIdeal.Gen.facts, Cert.ReferenceIdeal.Gen.facts, Cert.Pre_finite_inputs.Gen.facts,
    fun m ρ _ => Cert.Kernel.GenP.frame m ρ,
    fun m ρ _ => Cert.KernelIdeal.GenP.frame m ρ,
    fun m ρ _ => (θ_run Cert.ReferenceIdeal.defs _ _).mono (fun _ h c => (h c).2)
      (Cert.ReferenceIdeal.Value.run (F := Ideal) m ρ),
    trivial,
    algebraic⟩

end Cert.Proof

end
